-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S512x256 : Shape := ⟨2, ![512, 256]⟩
abbrev S256 : Shape := ⟨1, ![256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S512x256 .f32) (main_arg5 : FVec F S256 .f32) (main_arg6 : FVec F S512x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_v33

def fn {F : FTy → Type} [FloatOps F] (main_arg0 : FVec F S16384x256 .f32) (main_arg1 : FVec F S16384x256 .f32) (main_arg2 : FVec F S512x256 .f32) (main_arg3 : FVec F S256 .f32) (main_arg4 : FVec F S512x256 .f32) (main_arg5 : FVec F S256 .f32) (main_arg6 : FVec F S512x256 .f32) (main_arg7 : FVec F S256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S16384x256 : Shape := ⟨2, ![16384, 256]⟩
abbrev S512x256 : Shape := ⟨2, ![512, 256]⟩
abbrev S256 : Shape := ⟨1, ![256]⟩
abbrev S256x256 : Shape := ⟨2, ![256, 256]⟩
abbrev S256x512 : Shape := ⟨2, ![256, 512]⟩
abbrev S256x768 : Shape := ⟨2, ![256, 768]⟩
abbrev S512 : Shape := ⟨1, ![512]⟩
abbrev S1x512 : Shape := ⟨2, ![1, 512]⟩
abbrev S1x256 : Shape := ⟨2, ![1, 256]⟩
abbrev S2048x256 : Shape := ⟨2, ![2048, 256]⟩
abbrev S2048x512 : Shape := ⟨2, ![2048, 512]⟩
abbrev S2048x768 : Shape := ⟨2, ![2048, 768]⟩

abbrev nBuf : Space → Nat
  | .hbm => 23
  | .vmem => 11
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S256x256, .f32⟩
  | .hbm, ⟨14, _⟩ => ⟨S256x512, .f32⟩
  | .hbm, ⟨15, _⟩ => ⟨S256x512, .bf16⟩
  | .hbm, ⟨16, _⟩ => ⟨S256x768, .f32⟩
  | .hbm, ⟨17, _⟩ => ⟨S256x768, .bf16⟩
  | .hbm, ⟨18, _⟩ => ⟨S256x256, .bf16⟩
  | .hbm, ⟨19, _⟩ => ⟨S512, .f32⟩
  | .hbm, ⟨20, _⟩ => ⟨S1x512, .f32⟩
  | .hbm, ⟨21, _⟩ => ⟨S1x256, .f32⟩
  | .hbm, ⟨22, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S256x512, .bf16⟩
  | .local _ .vmem, ⟨5, _⟩ => ⟨S256x768, .bf16⟩
  | .local _ .vmem, ⟨6, _⟩ => ⟨S256x256, .bf16⟩
  | .local _ .vmem, ⟨7, _⟩ => ⟨S1x512, .f32⟩
  | .local _ .vmem, ⟨8, _⟩ => ⟨S1x256, .f32⟩
  | .local _ .vmem, ⟨9, _⟩ => ⟨S2048x256, .f32⟩
  | .local _ .vmem, ⟨10, _⟩ => ⟨S2048x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S512x256_S256x256_0_0 : S512x256.Slices ![0, 0] S256x256
  slices_S512x256_S256x256_256_0 : S512x256.Slices ![256, 0] S256x256
  concatenates_S256x256_S256x256_S256x512_d1 : Shape.Concatenates [S256x256, S256x256] S256x512 1
  bitsLt_bf16_f32 : FTy.bits .bf16 < FTy.bits .f32
  concatenates_S256x256_S256x256_S256x256_S256x768_d1 : Shape.Concatenates [S256x256, S256x256, S256x256] S256x768 1
  concatenates_S256_S256_S512_d0 : Shape.Concatenates [S256, S256] S512 0
  shapeCasts_S512_S1x512 : S512.ShapeCasts S1x512
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x768_S256x768_0_0 : ∀ a, (![0, 0] : Fin 2 → Nat) a + S256x768.size a ≤ S256x768.size a
  h_S256x768 : 0 < S256x768.numel
  shapeCasts_S256x768_S256x768 : S256x768.ShapeCasts S256x768
  slices_S2048x768_o0_0_S2048x512 : S2048x768.Slices ![0, 0] S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x256 : S2048x512.Slices ![0, 0] S2048x256
  slices_S2048x512_o0_256_S2048x256 : S2048x512.Slices ![0, 256] S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  slices_S2048x768_o0_512_S2048x256 : S2048x768.Slices ![0, 512] S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  dot_S2048x256_S256x512_S2048x512_1_0_0_1_n_n_wf : DotDims.WF S2048x256 S256x512 S2048x512 [1] [0] [0] [1] [] []
  dot_S2048x256_S256x768_S2048x768_1_0_0_1_n_n_wf : DotDims.WF S2048x256 S256x768 S2048x768 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .f32 = 32 ∨ (Rect.block (s := S16384x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x768.size a ≤ S256x768.size a
  hwx0_3 : ∀ i : grid0.Coords, EltTy.bits .bf16 = 32 ∨ (Rect.block (s := S256x768) S256x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S16384x256.size a
  hwx0_7 : ∀ i : grid0.Coords, EltTy.bits .f32 = 32 ∨ (Rect.block (s := S16384x256) S2048x256.size (cc0_transform_7 i) (hinb0_7 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S2048x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x256 : Shape := ⟨2, ![16384, 256]⟩
abbrev S512x256 : Shape := ⟨2, ![512, 256]⟩
abbrev S256 : Shape := ⟨1, ![256]⟩
abbrev S16384x512 : Shape := ⟨2, ![16384, 512]⟩
abbrev S1x256 : Shape := ⟨2, ![1, 256]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x256, .f32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S16384x512, .f32⟩
  | .hbm, ⟨9, _⟩ => ⟨S16384x256, .f32⟩
  | .hbm, ⟨10, _⟩ => ⟨S1x256, .f32⟩
  | .hbm, ⟨11, _⟩ => ⟨S16384x256, .f32⟩
  | .hbm, ⟨12, _⟩ => ⟨S16384x256, .f32⟩
  | .hbm, ⟨13, _⟩ => ⟨S16384x256, .f32⟩
  | .hbm, ⟨14, _⟩ => ⟨S16384x256, .f32⟩
  | .hbm, ⟨15, _⟩ => ⟨S_, .f32⟩
  | .hbm, ⟨16, _⟩ => ⟨S16384x256, .f32⟩
  | .hbm, ⟨17, _⟩ => ⟨S16384x256, .f32⟩
  | .hbm, ⟨18, _⟩ => ⟨S_, .f32⟩
  | .hbm, ⟨19, _⟩ => ⟨S16384x256, .f32⟩
  | .hbm, ⟨20, _⟩ => ⟨S16384x256, .f32⟩
  | .hbm, ⟨21, _⟩ => ⟨S16384x256, .f32⟩
  | .hbm, ⟨22, _⟩ => ⟨S1x256, .f32⟩
  | .hbm, ⟨23, _⟩ => ⟨S16384x256, .f32⟩
  | .hbm, ⟨24, _⟩ => ⟨S16384x256, .f32⟩
  | .hbm, ⟨25, _⟩ => ⟨S16384x256, .f32⟩
  | .hbm, ⟨26, _⟩ => ⟨S16384x256, .f32⟩
  | .hbm, ⟨27, _⟩ => ⟨S_, .f32⟩
  | .hbm, ⟨28, _⟩ => ⟨S16384x256, .f32⟩
  | .hbm, ⟨29, _⟩ => ⟨S16384x256, .f32⟩
  | .hbm, ⟨30, _⟩ => ⟨S_, .f32⟩
  | .hbm, ⟨31, _⟩ => ⟨S16384x256, .f32⟩
  | .hbm, ⟨32, _⟩ => ⟨S16384x256, .f32⟩
  | .hbm, ⟨33, _⟩ => ⟨S16384x256, .f32⟩
  | .hbm, ⟨34, _⟩ => ⟨S16384x512, .f32⟩
  | .hbm, ⟨35, _⟩ => ⟨S16384x256, .f32⟩
  | .hbm, ⟨36, _⟩ => ⟨S1x256, .f32⟩
  | .hbm, ⟨37, _⟩ => ⟨S16384x256, .f32⟩
  | .hbm, ⟨38, _⟩ => ⟨S16384x256, .f32⟩
  | .hbm, ⟨39, _⟩ => ⟨S16384x256, .f32⟩
  | .hbm, ⟨40, _⟩ => ⟨S_, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S16384x256, .f32⟩
  | .hbm, ⟨45, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  concatenates_S16384x256_S16384x256_S16384x512_d1 : Shape.Concatenates [S16384x256, S16384x256] S16384x512 1
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  dot_S16384x512_S512x256_S16384x256_1_0_0_1_n_n_wf : DotDims.WF S16384x512 S512x256 S16384x256 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf

class Facts : Prop extends Facts₀ where

variable [Facts]
-- ==== Proof.KernelLaunched.lean ====
/-
  The run of the program up to and through its one kernel launch, and what it leaves.

  The program first prepares, on the host, the operands of the kernel: three fused weight matrices (slices of the
  three [512, 256] weight arrays joined along their columns), the two biases joined and made rows. It then launches the
  kernel over a grid of 8 points. At point t the kernel is handed rows 2048 t .. 2048 t + 2047 of x and of the previous
  state, the whole of each weight matrix and bias row, and an output buffer for the same rows of the new state; it
  loads every input whole, and stores one value covering the whole output buffer.

  This module states what memory holds when the kernel is entered (the host operations applied to the launch
  memory), that those operations write none of the program's eight arguments, what the body leaves in the output
  buffer at a point as a function of the blocks it was handed, and that every weakly fair execution of the whole
  program terminates without a fault with every argument unchanged and the output array assembled from the blocks
  the points wrote back. Everything is stated for an arbitrary float instance.
-/
import proofs.«116972_j83760452207457_2_alg».proof.Proof.Gen.Kernel.Launch
import proofs.«116972_j83760452207457_2_alg».proof.Proof.Gen.Kernel.Skeleton
import proofs.«116972_j83760452207457_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Launched

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory when the kernel is entered -/

/-- Core c's buffers when the kernel is entered: the fourteen host operations applied, in order, to the launch
    memory. -/
abbrev atEntry (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is the host operations followed by the launch, so the launch finds memory at `atEntry`. -/
theorem main_to_entry (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- A buffer none of the host operations writes is found as launched. -/
theorem atEntry_of_unwritten (c : Dev nD) (b : Ref sig .tc)
    (hb : ∀ op ∈ (hostOps0 : List (HloOp τ sig (Elt F))), Proc.devRef (τ := τ) .tc b ∉ op.writes) :
    atEntry m c b = m ((c : Thread nD τ).loc b) :=
  StableHlo.after_of_forall_not_mem (b := Proc.devRef .tc b) _ _ hb

/-- The host operations write only the intermediate buffers: an argument is none of them. -/
theorem unwritten (b : Ref sig .tc)
    (h : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9 ∧ b ≠ main_v10 ∧ b ≠ main_v11 ∧ b ≠ main_v12 ∧ b ≠ main_v13) :
    ∀ op ∈ (hostOps0 : List (HloOp τ sig (Elt F))), Proc.devRef (τ := τ) .tc b ∉ op.writes := by
  obtain ⟨h0, h1, h2, h3, h4, h5, h6, h7, h8, h9, h10, h11, h12, h13⟩ := h
  refine List.forall_iff_forall_mem.mp ?_
  simp only [hostOps0, List.Forall, StableHlo.unary_writes, StableHlo.binary_writes, StableHlo.nary_writes,
    StableHlo.reshape_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11,
    StableHlo.devRef_ne_of_ne h12, StableHlo.devRef_ne_of_ne h13⟩

theorem atEntry_arg0 (c : Dev nD) : atEntry m c main_arg0 = m ((c : Thread nD τ).loc main_arg0) :=
  atEntry_of_unwritten m c _ (unwritten _ (by decide))
theorem atEntry_arg1 (c : Dev nD) : atEntry m c main_arg1 = m ((c : Thread nD τ).loc main_arg1) :=
  atEntry_of_unwritten m c _ (unwritten _ (by decide))
theorem atEntry_arg2 (c : Dev nD) : atEntry m c main_arg2 = m ((c : Thread nD τ).loc main_arg2) :=
  atEntry_of_unwritten m c _ (unwritten _ (by decide))
theorem atEntry_arg3 (c : Dev nD) : atEntry m c main_arg3 = m ((c : Thread nD τ).loc main_arg3) :=
  atEntry_of_unwritten m c _ (unwritten _ (by decide))
theorem atEntry_arg4 (c : Dev nD) : atEntry m c main_arg4 = m ((c : Thread nD τ).loc main_arg4) :=
  atEntry_of_unwritten m c _ (unwritten _ (by decide))
theorem atEntry_arg5 (c : Dev nD) : atEntry m c main_arg5 = m ((c : Thread nD τ).loc main_arg5) :=
  atEntry_of_unwritten m c _ (unwritten _ (by decide))
theorem atEntry_arg6 (c : Dev nD) : atEntry m c main_arg6 = m ((c : Thread nD τ).loc main_arg6) :=
  atEntry_of_unwritten m c _ (unwritten _ (by decide))
theorem atEntry_arg7 (c : Dev nD) : atEntry m c main_arg7 = m ((c : Thread nD τ).loc main_arg7) :=
  atEntry_of_unwritten m c _ (unwritten _ (by decide))

/-! ## The blocks the kernel is handed -/

/-- Operand w's block at grid point t, read off its array as the kernel finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input operand's current buffer holds its block at every point, whether the block was fetched at that point or
    is still there from an earlier one (the weights and biases are fetched at the first point only and their block
    never moves), for any proof data whose arrays are the entry contents and whose body leaves the input's block in
    place. One statement per input operand. -/
theorem held_input0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_input1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_input2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_input3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_input4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held_input5 {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem held_input6 {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The arguments are unchanged by any run that reaches the launch's post -/

/-- From a run to the launch's post (every staged array at what the proof data computes, every other buffer as the
    kernel found it), the eight arguments end as launched: x and the previous state are staged inputs, which a launch
    gives back as found; the weights and biases are staged by no operand; and none was written before the launch. -/
theorem args_kept (pd : (p : Fin 1) → (c : Dev nD) → Dat τ (Elt F) Unit ℕ (UR sig nD τ) ℕ (cfgs p) c)
    (hA : ∀ c w, (pd 0 c).A w = atEntry m c (Pipeline.arrRef spec0 w))
    (h : θ_run defs (onTc (τ := τ) (main (F := F))) (s₀ m ρ) (Pipeline.FramePost cfgs pd 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((pd 0 c).arrAt_in 0 rfl _).trans ((hA c 0).trans (atEntry_arg0 m c))),
      ((h c).1 1).trans (((pd 0 c).arrAt_in 1 rfl _).trans ((hA c 1).trans (atEntry_arg1 m c))),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c)⟩) h

/-! ## What the body leaves in the output buffer -/

/-- The whole of each buffer's shape, as the rectangle the body loads or stores through. -/
abbrev whole2048x256 : Rect S2048x256 := Rect.unit (s := S2048x256) ![0, 0] S2048x256.size inb_S2048x256_S2048x256_0_0
abbrev whole256x512 : Rect S256x512 := Rect.unit (s := S256x512) ![0, 0] S256x512.size inb_S256x512_S256x512_0_0
abbrev whole256x768 : Rect S256x768 := Rect.unit (s := S256x768) ![0, 0] S256x768.size inb_S256x768_S256x768_0_0
abbrev whole256x256 : Rect S256x256 := Rect.unit (s := S256x256) ![0, 0] S256x256.size inb_S256x256_S256x256_0_0
abbrev whole1x512 : Rect S1x512 := Rect.unit (s := S1x512) ![0, 0] S1x512.size inb_S1x512_S1x512_0_0
abbrev whole1x256 : Rect S1x256 := Rect.unit (s := S1x256) ![0, 0] S1x256.size inb_S1x256_S1x256_0_0

/-- The output buffer after the body, from the blocks it was handed: its one store, of the body's arithmetic
    applied to the seven loaded inputs, read back over the whole buffer. -/
def written (x0 x1 : Vec F S2048x256 .f32) (x2 : Vec F S256x512 .bf16) (x3 : Vec F S256x768 .bf16) (x4 : Vec F S256x256 .bf16)
    (x5 : Vec F S1x512 .f32) (x6 : Vec F S1x256 .f32) : Vec F S2048x256 .f32 :=
  View.canon [⟨whole2048x256, k0_pay1 (View.ld x0 whole2048x256) (View.ld x1 whole2048x256) (View.ld x2 whole256x512)
    (View.ld x3 whole256x768) (View.ld x5 whole1x512) (View.ld x4 whole256x256) (View.ld x6 whole1x256)⟩]

/-- The one store covers the output buffer. -/
theorem store_covers (p0 : Vec F S2048x256 .f32) (y : S2048x256.Idx) :
    ∃ pc ∈ ([⟨whole2048x256, p0⟩] : List (View.Piece (Elt F) S2048x256 .f32)), y ∈ pc.1.set :=
  View.cover_of_tiled [⟨whole2048x256, p0⟩] S2048x256.size (by rfl) y

/-! ## The body's run -/

set_option maxHeartbeats 1000000 in
/-- The body, on whole buffers holding the inputs at x0 .. x6 and the output at anything, runs to its end without a
    fault, leaves the inputs as they were and the output buffer at `written` of them. -/
theorem body_runs (c : Dev nD) (E : Set ℕ) (i : grid0.Coords)
    (arg1 : Memref sig .tc .vmem S2048x256 .f32) (harg1 : arg1.IsWhole) (arg2 : Memref sig .tc .vmem S2048x256 .f32) (harg2 : arg2.IsWhole)
    (arg3 : Memref sig .tc .vmem S256x512 .bf16) (harg3 : arg3.IsWhole) (arg4 : Memref sig .tc .vmem S256x768 .bf16) (harg4 : arg4.IsWhole)
    (arg5 : Memref sig .tc .vmem S256x256 .bf16) (harg5 : arg5.IsWhole) (arg6 : Memref sig .tc .vmem S1x512 .f32) (harg6 : arg6.IsWhole)
    (arg7 : Memref sig .tc .vmem S1x256 .f32) (harg7 : arg7.IsWhole) (arg8 : Memref sig .tc .vmem S2048x256 .f32) (harg8 : arg8.IsWhole)
    (x0 x1 : Vec F S2048x256 .f32) (x2 : Vec F S256x512 .bf16) (x3 : Vec F S256x768 .bf16) (x4 : Vec F S256x256 .bf16)
    (x5 : Vec F S1x512 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (written x0 x1 x2 x3 x4 x5 x6)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (store_covers _)

/-! ## The launch's proof data -/

/-- What each operand's buffer holds after the body at point t: an input's block as handed, the output's at
    `written` of the seven input blocks. The arrays are the entry contents; the kernel keeps nothing of its own
    between points. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => written (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

theorem pdata_A (c : Dev nD) (w : Fin cfg0.W) : (pdata m 0 c).A w = atEntry m c (Pipeline.arrRef spec0 w) := by
  dsimp only [pdata]

theorem after_0 (c : Dev nD) (t : Fin cfg0.N) : (pdata m 0 c).after 0 t = blockAt m c 0 t := by dsimp only [pdata]
theorem after_1 (c : Dev nD) (t : Fin cfg0.N) : (pdata m 0 c).after 1 t = blockAt m c 1 t := by dsimp only [pdata]
theorem after_2 (c : Dev nD) (t : Fin cfg0.N) : (pdata m 0 c).after 2 t = blockAt m c 2 t := by dsimp only [pdata]
theorem after_3 (c : Dev nD) (t : Fin cfg0.N) : (pdata m 0 c).after 3 t = blockAt m c 3 t := by dsimp only [pdata]
theorem after_4 (c : Dev nD) (t : Fin cfg0.N) : (pdata m 0 c).after 4 t = blockAt m c 4 t := by dsimp only [pdata]
theorem after_5 (c : Dev nD) (t : Fin cfg0.N) : (pdata m 0 c).after 5 t = blockAt m c 5 t := by dsimp only [pdata]
theorem after_6 (c : Dev nD) (t : Fin cfg0.N) : (pdata m 0 c).after 6 t = blockAt m c 6 t := by dsimp only [pdata]
/-- The output buffer after the body at point t. -/
theorem after_7 (c : Dev nD) (t : Fin cfg0.N) : (pdata m 0 c).after 7 t
    = written (blockAt m c 0 t) (blockAt m c 1 t) (blockAt m c 2 t) (blockAt m c 3 t) (blockAt m c 4 t) (blockAt m c 5 t) (blockAt m c 6 t) := by
  dsimp only [pdata]

theorem before_0 (c : Dev nD) (t : Fin cfg0.N) (d) : (pdata m 0 c).before 0 t d = blockAt m c 0 t :=
  held_input0 m (pdata m 0 c) (pdata_A m c 0) (after_0 m c) t d
theorem before_1 (c : Dev nD) (t : Fin cfg0.N) (d) : (pdata m 0 c).before 1 t d = blockAt m c 1 t :=
  held_input1 m (pdata m 0 c) (pdata_A m c 1) (after_1 m c) t d
theorem before_2 (c : Dev nD) (t : Fin cfg0.N) (d) : (pdata m 0 c).before 2 t d = blockAt m c 2 t :=
  held_input2 m (pdata m 0 c) (pdata_A m c 2) (after_2 m c) t d
theorem before_3 (c : Dev nD) (t : Fin cfg0.N) (d) : (pdata m 0 c).before 3 t d = blockAt m c 3 t :=
  held_input3 m (pdata m 0 c) (pdata_A m c 3) (after_3 m c) t d
theorem before_4 (c : Dev nD) (t : Fin cfg0.N) (d) : (pdata m 0 c).before 4 t d = blockAt m c 4 t :=
  held_input4 m (pdata m 0 c) (pdata_A m c 4) (after_4 m c) t d
theorem before_5 (c : Dev nD) (t : Fin cfg0.N) (d) : (pdata m 0 c).before 5 t d = blockAt m c 5 t :=
  held_input5 m (pdata m 0 c) (pdata_A m c 5) (after_5 m c) t d
theorem before_6 (c : Dev nD) (t : Fin cfg0.N) (d) : (pdata m 0 c).before 6 t d = blockAt m c 6 t :=
  held_input6 m (pdata m 0 c) (pdata_A m c 6) (after_6 m c) t d

/-! ## The body at a grid point -/

/-- What the body is called with at point t, operand by operand, -/
def handed (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d))
    ∗ (∃ d, owns (c : Thread nD τ) (st0_6 t) fullShare ((pdata m 0 c).before 6 t d))
    ∗ (∃ d, owns (c : Thread nD τ) (st0_7 t) fullShare ((pdata m 0 c).before 7 t d)))

/-- and what it gives back. -/
def returned (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t)
    ∗ owns (c : Thread nD τ) (st0_6 t) fullShare ((pdata m 0 c).after 6 t)
    ∗ owns (c : Thread nD τ) (st0_7 t) fullShare ((pdata m 0 c).after 7 t))

/-- The body at any point: the input buffers hold their blocks, so `body_runs` applies; what the kernel does not
    touch passes through. -/
theorem body_at (c : Dev nD) (t : Fin cfg0.N) :
    handed m c t ⊢ wp frame (wpE (defs₀ (F := F)) Variants.none c none) Set.univ (bodyAt0 t) (fun _ => returned m c t) := by
  unfold handed returned bodyAt0
  simp only [before_0, before_1, before_2, before_3, before_4, before_5, before_6]
  rw [show (pdata m 0 c).Φ t.succ = (pdata m 0 c).Φ t.castSucc from rfl,
    show (pdata m 0 c).owesAt () t.succ = (pdata m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c Set.univ _ _ _ _ _ _ _ _ _ _ _ _ _ _ _ _ _ (blockAt m c 0 t) (blockAt m c 1 t) (blockAt m c 2 t) (blockAt m c 3 t)
    (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch's obligation on the body, at every point. -/
theorem body_everywhere (c : Dev nD) : BodyObligation (pdata (F := F) m 0 c) (defs₀ (F := F)) Variants.none () Set.univ := fun t => by
  rw [bigSep_W0, bigSep_W0]
  exact body_at m c t

/-! ## The run -/

set_option backward.isDefEq.respectTransparency.types false in
/-- From any memory with zero counters, every weakly fair execution of the program terminates without a fault, with
    every operand's array at what the proof data computes from the blocks written back and every other unscoped
    buffer as the kernel found it. -/
theorem run_launched : θ_run defs (onTc (τ := τ) (main (F := F))) (s₀ m ρ) (Pipeline.FramePost cfgs (pdata m) 0 (atEntry m)) :=
  Pipeline.θ_run_frame cfgs (pdata m) (0 : Fin 1) launch0 defs₀ Variants.none m ρ main
    (hbody := fun c => (body_everywhere m c).loose) (hshare := fun c => (pdata m 0 c).share_full fun _ => rfl)
    (howed := fun _ _ => rfl) (V := atEntry m) (hmain := main_to_entry m Variants.none) (hA := pdata_A m) (hΦ := fun _ _ => rfl)

/-- The program runs to its end, nothing faults, and its eight arguments end unchanged. -/
theorem args_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  args_kept m ρ (pdata m) (pdata_A m) (run_launched m ρ)

end Cert.Kernel.Launched

end
-- ==== Proof.KernelIdealLaunched.lean ====
/-
  The run of the program up to and through its one kernel launch, and what it leaves.

  The program first prepares, on the host, the operands of the kernel: three fused weight matrices (slices of the
  three [512, 256] weight arrays joined along their columns), the two biases joined and made rows. It then launches the
  kernel over a grid of 8 points. At point t the kernel is handed rows 2048 t .. 2048 t + 2047 of x and of the previous
  state, the whole of each weight matrix and bias row, and an output buffer for the same rows of the new state; it
  loads every input whole, and stores one value covering the whole output buffer.

  This module states what memory holds when the kernel is entered (the host operations applied to the launch
  memory), that those operations write none of the program's eight arguments, what the body leaves in the output
  buffer at a point as a function of the blocks it was handed, and that every weakly fair execution of the whole
  program terminates without a fault with every argument unchanged and the output array assembled from the blocks
  the points wrote back. Everything is stated for an arbitrary float instance.
-/
import proofs.«116972_j83760452207457_2_alg».proof.Proof.Gen.KernelIdeal.Launch
import proofs.«116972_j83760452207457_2_alg».proof.Proof.Gen.KernelIdeal.Skeleton
import proofs.«116972_j83760452207457_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Launched

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Memory when the kernel is entered -/

/-- Core c's buffers when the kernel is entered: the fourteen host operations applied, in order, to the launch
    memory. -/
abbrev atEntry (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is the host operations followed by the launch, so the launch finds memory at `atEntry`. -/
theorem main_to_entry (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_fresh main_chain

/-- A buffer none of the host operations writes is found as launched. -/
theorem atEntry_of_unwritten (c : Dev nD) (b : Ref sig .tc)
    (hb : ∀ op ∈ (hostOps0 : List (HloOp τ sig (Elt F))), Proc.devRef (τ := τ) .tc b ∉ op.writes) :
    atEntry m c b = m ((c : Thread nD τ).loc b) :=
  StableHlo.after_of_forall_not_mem (b := Proc.devRef .tc b) _ _ hb

/-- The host operations write only the intermediate buffers: an argument is none of them. -/
theorem unwritten (b : Ref sig .tc)
    (h : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9 ∧ b ≠ main_v10 ∧ b ≠ main_v11 ∧ b ≠ main_v12 ∧ b ≠ main_v13) :
    ∀ op ∈ (hostOps0 : List (HloOp τ sig (Elt F))), Proc.devRef (τ := τ) .tc b ∉ op.writes := by
  obtain ⟨h0, h1, h2, h3, h4, h5, h6, h7, h8, h9, h10, h11, h12, h13⟩ := h
  refine List.forall_iff_forall_mem.mp ?_
  simp only [hostOps0, List.Forall, StableHlo.unary_writes, StableHlo.binary_writes, StableHlo.nary_writes,
    StableHlo.reshape_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9, StableHlo.devRef_ne_of_ne h10, StableHlo.devRef_ne_of_ne h11,
    StableHlo.devRef_ne_of_ne h12, StableHlo.devRef_ne_of_ne h13⟩

theorem atEntry_arg0 (c : Dev nD) : atEntry m c main_arg0 = m ((c : Thread nD τ).loc main_arg0) :=
  atEntry_of_unwritten m c _ (unwritten _ (by decide))
theorem atEntry_arg1 (c : Dev nD) : atEntry m c main_arg1 = m ((c : Thread nD τ).loc main_arg1) :=
  atEntry_of_unwritten m c _ (unwritten _ (by decide))
theorem atEntry_arg2 (c : Dev nD) : atEntry m c main_arg2 = m ((c : Thread nD τ).loc main_arg2) :=
  atEntry_of_unwritten m c _ (unwritten _ (by decide))
theorem atEntry_arg3 (c : Dev nD) : atEntry m c main_arg3 = m ((c : Thread nD τ).loc main_arg3) :=
  atEntry_of_unwritten m c _ (unwritten _ (by decide))
theorem atEntry_arg4 (c : Dev nD) : atEntry m c main_arg4 = m ((c : Thread nD τ).loc main_arg4) :=
  atEntry_of_unwritten m c _ (unwritten _ (by decide))
theorem atEntry_arg5 (c : Dev nD) : atEntry m c main_arg5 = m ((c : Thread nD τ).loc main_arg5) :=
  atEntry_of_unwritten m c _ (unwritten _ (by decide))
theorem atEntry_arg6 (c : Dev nD) : atEntry m c main_arg6 = m ((c : Thread nD τ).loc main_arg6) :=
  atEntry_of_unwritten m c _ (unwritten _ (by decide))
theorem atEntry_arg7 (c : Dev nD) : atEntry m c main_arg7 = m ((c : Thread nD τ).loc main_arg7) :=
  atEntry_of_unwritten m c _ (unwritten _ (by decide))

/-! ## The blocks the kernel is handed -/

/-- Operand w's block at grid point t, read off its array as the kernel finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input operand's current buffer holds its block at every point, whether the block was fetched at that point or
    is still there from an earlier one (the weights and biases are fetched at the first point only and their block
    never moves), for any proof data whose arrays are the entry contents and whose body leaves the input's block in
    place. One statement per input operand. -/
theorem held_input0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_input1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_input2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_input3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_input4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held_input5 {c : Dev nD} (dat : Dat τ (Elt F) Unit ℕ (UR sig nD τ) ℕ cfg0 c) (hA : dat.A 5 = atEntry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem held_input6 {c : Dev nD} (dat : Dat τ (Elt F) Unit ℕ (UR sig nD τ) ℕ cfg0 c) (hA : dat.A 6 = atEntry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)

/-! ## The arguments are unchanged by any run that reaches the launch's post -/

/-- From a run to the launch's post (every staged array at what the proof data computes, every other buffer as the
    kernel found it), the eight arguments end as launched: x and the previous state are staged inputs, which a launch
    gives back as found; the weights and biases are staged by no operand; and none was written before the launch. -/
theorem args_kept (pd : (p : Fin 1) → (c : Dev nD) → Dat τ (Elt F) Unit ℕ (UR sig nD τ) ℕ (cfgs p) c)
    (hA : ∀ c w, (pd 0 c).A w = atEntry m c (Pipeline.arrRef spec0 w))
    (h : θ_run defs (onTc (τ := τ) (main (F := F))) (s₀ m ρ) (Pipeline.FramePost cfgs pd 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((pd 0 c).arrAt_in 0 rfl _).trans ((hA c 0).trans (atEntry_arg0 m c))),
      ((h c).1 1).trans (((pd 0 c).arrAt_in 1 rfl _).trans ((hA c 1).trans (atEntry_arg1 m c))),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c)⟩) h

/-! ## What the body leaves in the output buffer -/

/-- The whole of each buffer's shape, as the rectangle the body loads or stores through. -/
abbrev whole2048x256 : Rect S2048x256 := Rect.unit (s := S2048x256) ![0, 0] S2048x256.size inb_S2048x256_S2048x256_0_0
abbrev whole256x512 : Rect S256x512 := Rect.unit (s := S256x512) ![0, 0] S256x512.size inb_S256x512_S256x512_0_0
abbrev whole256x768 : Rect S256x768 := Rect.unit (s := S256x768) ![0, 0] S256x768.size inb_S256x768_S256x768_0_0
abbrev whole256x256 : Rect S256x256 := Rect.unit (s := S256x256) ![0, 0] S256x256.size inb_S256x256_S256x256_0_0
abbrev whole1x512 : Rect S1x512 := Rect.unit (s := S1x512) ![0, 0] S1x512.size inb_S1x512_S1x512_0_0
abbrev whole1x256 : Rect S1x256 := Rect.unit (s := S1x256) ![0, 0] S1x256.size inb_S1x256_S1x256_0_0

/-- The output buffer after the body, from the blocks it was handed: its one store, of the body's arithmetic
    applied to the seven loaded inputs, read back over the whole buffer. -/
def written (x0 x1 : Vec F S2048x256 .f32) (x2 : Vec F S256x512 .bf16) (x3 : Vec F S256x768 .bf16) (x4 : Vec F S256x256 .bf16)
    (x5 : Vec F S1x512 .f32) (x6 : Vec F S1x256 .f32) : Vec F S2048x256 .f32 :=
  View.canon [⟨whole2048x256, k0_pay1 (View.ld x0 whole2048x256) (View.ld x1 whole2048x256) (View.ld x2 whole256x512)
    (View.ld x3 whole256x768) (View.ld x5 whole1x512) (View.ld x4 whole256x256) (View.ld x6 whole1x256)⟩]

/-- The one store covers the output buffer. -/
theorem store_covers (p0 : Vec F S2048x256 .f32) (y : S2048x256.Idx) :
    ∃ pc ∈ ([⟨whole2048x256, p0⟩] : List (View.Piece (Elt F) S2048x256 .f32)), y ∈ pc.1.set :=
  View.cover_of_tiled [⟨whole2048x256, p0⟩] S2048x256.size (by rfl) y

/-! ## The body's run -/

set_option maxHeartbeats 1000000 in
/-- The body, on whole buffers holding the inputs at x0 .. x6 and the output at anything, runs to its end without a
    fault, leaves the inputs as they were and the output buffer at `written` of them. -/
theorem body_runs (c : Dev nD) (E : Set ℕ) (i : grid0.Coords)
    (arg1 : Memref sig .tc .vmem S2048x256 .f32) (harg1 : arg1.IsWhole) (arg2 : Memref sig .tc .vmem S2048x256 .f32) (harg2 : arg2.IsWhole)
    (arg3 : Memref sig .tc .vmem S256x512 .bf16) (harg3 : arg3.IsWhole) (arg4 : Memref sig .tc .vmem S256x768 .bf16) (harg4 : arg4.IsWhole)
    (arg5 : Memref sig .tc .vmem S256x256 .bf16) (harg5 : arg5.IsWhole) (arg6 : Memref sig .tc .vmem S1x512 .f32) (harg6 : arg6.IsWhole)
    (arg7 : Memref sig .tc .vmem S1x256 .f32) (harg7 : arg7.IsWhole) (arg8 : Memref sig .tc .vmem S2048x256 .f32) (harg8 : arg8.IsWhole)
    (x0 x1 : Vec F S2048x256 .f32) (x2 : Vec F S256x512 .bf16) (x3 : Vec F S256x768 .bf16) (x4 : Vec F S256x256 .bf16)
    (x5 : Vec F S1x512 .f32) (x6 : Vec F S1x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (written x0 x1 x2 x3 x4 x5 x6)) -∗ K ⟨⟩))
      ⊢ wp frame (wpE (defs₀ (F := F)) Variants.none c none) E
          (cc0__gru_kernel i arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (store_covers _)

/-! ## The launch's proof data -/

/-- What each operand's buffer holds after the body at point t: an input's block as handed, the output's at
    `written` of the seven input blocks. The arrays are the entry contents; the kernel keeps nothing of its own
    between points. -/
def pdata (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => written (blockAt m c 0 t) (blockAt m c 1 t) (blockAt m c 2 t) (blockAt m c 3 t) (blockAt m c 4 t) (blockAt m c 5 t) (blockAt m c 6 t)
  Φ _ := Pipeline.ΦA spec0 c
  q _ := fullShare
  owed _ := 0

theorem pdata_A (c : Dev nD) (w : Fin cfg0.W) : (pdata m 0 c).A w = atEntry m c (Pipeline.arrRef spec0 w) := by
  dsimp only [pdata]

theorem after_0 (c : Dev nD) (t : Fin cfg0.N) : (pdata m 0 c).after 0 t = blockAt m c 0 t := by dsimp only [pdata]
theorem after_1 (c : Dev nD) (t : Fin cfg0.N) : (pdata m 0 c).after 1 t = blockAt m c 1 t := by dsimp only [pdata]
theorem after_2 (c : Dev nD) (t : Fin cfg0.N) : (pdata m 0 c).after 2 t = blockAt m c 2 t := by dsimp only [pdata]
theorem after_3 (c : Dev nD) (t : Fin cfg0.N) : (pdata m 0 c).after 3 t = blockAt m c 3 t := by dsimp only [pdata]
theorem after_4 (c : Dev nD) (t : Fin cfg0.N) : (pdata m 0 c).after 4 t = blockAt m c 4 t := by dsimp only [pdata]
theorem after_5 (c : Dev nD) (t : Fin cfg0.N) : (pdata m 0 c).after 5 t = blockAt m c 5 t := by dsimp only [pdata]
theorem after_6 (c : Dev nD) (t : Fin cfg0.N) : (pdata m 0 c).after 6 t = blockAt m c 6 t := by dsimp only [pdata]
/-- The output buffer after the body at point t. -/
theorem after_7 (c : Dev nD) (t : Fin cfg0.N) : (pdata m 0 c).after 7 t
    = written (blockAt m c 0 t) (blockAt m c 1 t) (blockAt m c 2 t) (blockAt m c 3 t) (blockAt m c 4 t) (blockAt m c 5 t) (blockAt m c 6 t) := by
  dsimp only [pdata]

theorem before_0 (c : Dev nD) (t : Fin cfg0.N) (d) : (pdata m 0 c).before 0 t d = blockAt m c 0 t :=
  held_input0 m (pdata m 0 c) (pdata_A m c 0) (after_0 m c) t d
theorem before_1 (c : Dev nD) (t : Fin cfg0.N) (d) : (pdata m 0 c).before 1 t d = blockAt m c 1 t :=
  held_input1 m (pdata m 0 c) (pdata_A m c 1) (after_1 m c) t d
theorem before_2 (c : Dev nD) (t : Fin cfg0.N) (d) : (pdata m 0 c).before 2 t d = blockAt m c 2 t :=
  held_input2 m (pdata m 0 c) (pdata_A m c 2) (after_2 m c) t d
theorem before_3 (c : Dev nD) (t : Fin cfg0.N) (d) : (pdata m 0 c).before 3 t d = blockAt m c 3 t :=
  held_input3 m (pdata m 0 c) (pdata_A m c 3) (after_3 m c) t d
theorem before_4 (c : Dev nD) (t : Fin cfg0.N) (d) : (pdata m 0 c).before 4 t d = blockAt m c 4 t :=
  held_input4 m (pdata m 0 c) (pdata_A m c 4) (after_4 m c) t d
theorem before_5 (c : Dev nD) (t : Fin cfg0.N) (d) : (pdata m 0 c).before 5 t d = blockAt m c 5 t :=
  held_input5 m (pdata m 0 c) (pdata_A m c 5) (after_5 m c) t d
theorem before_6 (c : Dev nD) (t : Fin cfg0.N) (d) : (pdata m 0 c).before 6 t d = blockAt m c 6 t :=
  held_input6 m (pdata m 0 c) (pdata_A m c 6) (after_6 m c) t d

/-! ## The body at a grid point -/

/-- What the body is called with at point t, operand by operand, -/
def handed (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d))
    ∗ (∃ d, owns (c : Thread nD τ) (st0_6 t) fullShare ((pdata m 0 c).before 6 t d))
    ∗ (∃ d, owns (c : Thread nD τ) (st0_7 t) fullShare ((pdata m 0 c).before 7 t d)))

/-- and what it gives back. -/
def returned (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t)
    ∗ owns (c : Thread nD τ) (st0_6 t) fullShare ((pdata m 0 c).after 6 t)
    ∗ owns (c : Thread nD τ) (st0_7 t) fullShare ((pdata m 0 c).after 7 t))

/-- The body at any point: the input buffers hold their blocks, so `body_runs` applies; what the kernel does not
    touch passes through. -/
theorem body_at (c : Dev nD) (t : Fin cfg0.N) :
    handed m c t ⊢ wp frame (wpE (defs₀ (F := F)) Variants.none c none) Set.univ (bodyAt0 t) (fun _ => returned m c t) := by
  unfold handed returned bodyAt0
  simp only [before_0, before_1, before_2, before_3, before_4, before_5, before_6]
  rw [show (pdata m 0 c).Φ t.succ = (pdata m 0 c).Φ t.castSucc from rfl,
    show (pdata m 0 c).owesAt () t.succ = (pdata m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_runs c Set.univ _ _ _ _ _ _ _ _ _ _ _ _ _ _ _ _ _ (blockAt m c 0 t) (blockAt m c 1 t) (blockAt m c 2 t) (blockAt m c 3 t)
    (blockAt m c 4 t) (blockAt m c 5 t) (blockAt m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The launch's obligation on the body, at every point. -/
theorem body_everywhere (c : Dev nD) : BodyObligation (pdata (F := F) m 0 c) (defs₀ (F := F)) Variants.none () Set.univ := fun t => by
  rw [bigSep_W0, bigSep_W0]
  exact body_at m c t

/-! ## The run -/

set_option backward.isDefEq.respectTransparency.types false in
/-- From any memory with zero counters, every weakly fair execution of the program terminates without a fault, with
    every operand's array at what the proof data computes from the blocks written back and every other unscoped
    buffer as the kernel found it. -/
theorem run_launched : θ_run defs (onTc (τ := τ) (main (F := F))) (s₀ m ρ) (Pipeline.FramePost cfgs (pdata m) 0 (atEntry m)) :=
  Pipeline.θ_run_frame cfgs (pdata m) (0 : Fin 1) launch0 defs₀ Variants.none m ρ main
    (hbody := fun c => (body_everywhere m c).loose) (hshare := fun c => (pdata m 0 c).share_full fun _ => rfl)
    (howed := fun _ _ => rfl) (V := atEntry m) (hmain := main_to_entry m Variants.none) (hA := pdata_A m) (hΦ := fun _ _ => rfl)

/-- The program runs to its end, nothing faults, and its eight arguments end unchanged. -/
theorem args_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  args_kept m ρ (pdata m) (pdata_A m) (run_launched m ρ)

end Cert.KernelIdeal.Launched

end
-- ==== Proof.GruCell.lean ====
/-
  One step of a gated recurrent cell, row by row, on the extended reals.

  A row of the previous state h (256 entries) and a row of the input x (256 entries) give a row of the new state.
  Each of the three weight matrices has 512 rows: the first 256 multiply the state, the last 256 the input, so a
  gate's pre-activation at unit c is

      (sum over k < 256 of h k * W (k, c)) + (sum over k < 256 of x k * W (256 + k, c)) + b c.

  The update gate z and the reset gate r are the logistic function of their pre-activations; the candidate state is
  the hyperbolic tangent of the same pre-activation taken with the row (r k * h k) in place of h; and the new state
  is (1 - z c) * h c + z c * candidate c. Every entry of the result depends on one row of h and one row of x only,
  which is why a kernel may tile the rows freely.
-/
import Idealize.ShloMosaic.PureOps.Ideal
import Idealize.ShloMosaic.Lib.ValueIdx

noncomputable section

namespace GruCell

open Idealize.ShloMosaic Idealize.ShloMosaic.ValueIdx

/-- Row k of a 512-row weight matrix, for k < 256: the part that multiplies the state. -/
abbrev lo (k : Fin 256) : Fin 512 := ⟨k.val, by omega⟩
/-- Row 256 + k of a 512-row weight matrix, for k < 256: the part that multiplies the input. -/
abbrev hi (k : Fin 256) : Fin 512 := ⟨256 + k.val, by omega⟩

/-- A gate's pre-activation at unit c from a state row, an input row, the gate's weights and bias. -/
def pre (hrow xrow : Fin 256 → EReal) (W : Fin 512 → Fin 256 → EReal) (b : Fin 256 → EReal) (c : Fin 256) : EReal :=
  ((∑ k : Fin 256, hrow k * W (lo k) c) + ∑ k : Fin 256, xrow k * W (hi k) c) + b c

/-- The state row scaled entry by entry by the reset gate. -/
def resetRow (hrow xrow : Fin 256 → EReal) (Wr : Fin 512 → Fin 256 → EReal) (br : Fin 256 → EReal) (k : Fin 256) : EReal :=
  Ideal.logistic (pre hrow xrow Wr br k) * hrow k

/-- The new state at unit c. -/
def entry (hrow xrow : Fin 256 → EReal) (Wz : Fin 512 → Fin 256 → EReal) (bz : Fin 256 → EReal)
    (Wr : Fin 512 → Fin 256 → EReal) (br : Fin 256 → EReal) (Ws : Fin 512 → Fin 256 → EReal) (bs : Fin 256 → EReal)
    (c : Fin 256) : EReal :=
  (1 - Ideal.logistic (pre hrow xrow Wz bz c)) * hrow c
    + Ideal.logistic (pre hrow xrow Wz bz c) * Ideal.tanh (pre (resetRow hrow xrow Wr br) xrow Ws bs c)

/-- Row r of an [n, 256] array. -/
abbrev row {n : ℕ} (a : (⟨2, ![n, 256]⟩ : Shape).Idx → EReal) (r : Fin n) : Fin 256 → EReal := fun k => a (ix2 r k)
/-- A [512, 256] array as a function of its two coordinates. -/
abbrev mat (w : (⟨2, ![512, 256]⟩ : Shape).Idx → EReal) : Fin 512 → Fin 256 → EReal := fun a b => w (ix2 a b)
/-- A [256] array as a function of its coordinate. -/
abbrev vec (b : (⟨1, ![256]⟩ : Shape).Idx → EReal) : Fin 256 → EReal := fun c => b (ix1 c)

/-- The whole step on [n, 256] arrays: entry (r, c) is the new state of row r at unit c. -/
def cell {n : ℕ} (x h : (⟨2, ![n, 256]⟩ : Shape).Idx → EReal) (Wz : (⟨2, ![512, 256]⟩ : Shape).Idx → EReal)
    (bz : (⟨1, ![256]⟩ : Shape).Idx → EReal) (Wr : (⟨2, ![512, 256]⟩ : Shape).Idx → EReal)
    (br : (⟨1, ![256]⟩ : Shape).Idx → EReal) (Ws : (⟨2, ![512, 256]⟩ : Shape).Idx → EReal)
    (bs : (⟨1, ![256]⟩ : Shape).Idx → EReal) : (⟨2, ![n, 256]⟩ : Shape).Idx → EReal :=
  fun j => entry (row h (j 0)) (row x (j 0)) (mat Wz) (vec bz) (mat Wr) (vec br) (mat Ws) (vec bs) (j 1)

/-- The step read at explicit coordinates. -/
theorem cell_apply {n : ℕ} (x h : (⟨2, ![n, 256]⟩ : Shape).Idx → EReal) (Wz : (⟨2, ![512, 256]⟩ : Shape).Idx → EReal)
    (bz : (⟨1, ![256]⟩ : Shape).Idx → EReal) (Wr : (⟨2, ![512, 256]⟩ : Shape).Idx → EReal)
    (br : (⟨1, ![256]⟩ : Shape).Idx → EReal) (Ws : (⟨2, ![512, 256]⟩ : Shape).Idx → EReal)
    (bs : (⟨1, ![256]⟩ : Shape).Idx → EReal) (r : Fin n) (c : Fin 256) :
    cell x h Wz bz Wr br Ws bs (ix2 r c)
      = entry (row h r) (row x r) (mat Wz) (vec bz) (mat Wr) (vec br) (mat Ws) (vec bs) c := rfl

/-- A sum over 512 positions is the sum over the first 256 plus the sum over the last 256. -/
theorem sum_halves (f : Fin 512 → EReal) : ∑ k : Fin 512, f k = (∑ k : Fin 256, f (lo k)) + ∑ k : Fin 256, f (hi k) := by
  have h := Fin.sum_univ_add (a := 256) (b := 256) (fun k : Fin (256 + 256) => f k)
  exact h

end GruCell

end
-- ==== Proof.LibPlainDot.lean ====
/-
  A plain matrix product read at an entry, on the extended reals.

  For the dimension numbers "rows x contraction times contraction x columns" (`DotDims.plain M K N`: the left
  operand [M, K] contracted on its second axis, the right operand [K, N] on its first, no batch axis), both a
  `tpu.matmul` into the zero accumulator and the host's `dot_general` are, at an output entry (r, c), the plain sum

      sum over k < K of  l (r, k) * r (k, c)

  of products of extended reals: no rounding, no chunking and no accumulator are left. Nothing is assumed finite: the
  statement is about one and the same finite sum of products, only re-indexed from the contraction's own index type
  to `Fin K`. Generic in the three extents, so one statement serves a row block of a matrix and the whole matrix.
-/
import Idealize.ShloMosaic.PureOps.Ideal.Laws
import Idealize.ShloMosaic.Lib.ValueIdx

noncomputable section

namespace PlainDot

open Idealize.ShloMosaic Idealize.ShloMosaic.ValueIdx

variable (M K N : Nat)

/-- The left operand's index at output entry `j` and contraction position `k` is (row of `j`, `k`). -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single rfl j _).trans hk

/-- The right operand's index at output entry `j` and contraction position `k` is (`k`, column of `j`). -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ =>
    exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction's sum, over its own index type, is the sum over `k < K` of `l (row, k) * r (k, column)`. -/
theorem sum_eq (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K rfl rfl).symm]
  refine Finset.sum_congr rfl fun k _ => ?_
  rw [lhsIdx_eq, rhsIdx_eq]
  rfl

/-- A `tpu.matmul` into the zero accumulator, at an entry: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, (l (ix2 (j 0) k) : EReal) * r (ix2 k (j 1)) :=
  (Ideal.matmul_constant_zero_apply (DotDims.plain M K N) prec l r j).trans (sum_eq M K N l r j)

/-- The host's `dot_general`, at an entry: the same plain sum of products, whatever the schedule key. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, (l (ix2 (j 0) k) : EReal) * r (ix2 k (j 1)) :=
  (Ideal.dotGeneral_apply (DotDims.plain M K N) prec sched l r j).trans (sum_eq M K N l r j)

end PlainDot

end
-- ==== Proof.LibLstmCell.lean ====
/-
  Two facts about recurrent cells that keep their state in a table filled row by row.

  (1) The arithmetic of one LSTM cell on the extended reals, in two spellings. The pre-activation of a gate is a
  sum of three terms: the input's projection, the recurrent projection and the bias. One program adds the
  two projections first and the bias last; another adds the bias to the input's projection first and the recurrent
  projection last. Addition on the extended reals is commutative and associative everywhere (the infinities
  included), so the two sums are equal with no finiteness assumption. The logistic function is by definition
  1 / (1 + e^(-x)); a program that spells it out with a negation, an exponential, a sum with the constant one
  and a quotient computes the same extended real, the constant being the float pattern of 1.0.

  (2) A table with rows 0 .. n filled in order: row 0 is set to a start value z, and step i (for i < n) writes
  row i + 1 with f i applied to the row par i read from the table as it then stands. When every par i ≤ i, the
  row read at step i was written before step i, so the rows do not depend on what the table held at the start,
  and the filled table is the recursion S 0 = z, S (i + 1) = f i (S (par i)). This is the shape of a tree
  recurrence (a child's state computed from its parent's) carried in a scratch table across sequential steps.
-/
import Idealize.ShloMosaic.PureOps.Ideal

noncomputable section

namespace LibLstmCell

open Idealize.ShloMosaic

/-! ## One cell's arithmetic -/

/-- The float pattern of 1.0 denotes the extended real 1. -/
theorem ofBits_one_f32 : Ideal.ofBits .f32 0x3F800000#32 = 1 := by
  simp [Ideal.ofBits, Ideal.ieee, -EReal.coe_mul]; norm_num

/-- A gate's pre-activation: projections first and bias last equals bias on the input's projection first and the
    recurrent projection last. No finiteness is needed. -/
theorem preact_regroup (xw hw b : EReal) : xw + hw + b = xw + b + hw := add_right_comm xw hw b

/-- The logistic spelled with a negation, an exponential, a sum with one and a quotient is the logistic. -/
theorem logistic_spelled (x : EReal) : Ideal.div 1 (1 + Ideal.exp (-x)) = Ideal.logistic x := rfl

/-- The new cell state from the input, forget and candidate pre-activations and the parent's cell state. -/
def cellC (i f g c : EReal) : EReal := Ideal.logistic f * c + Ideal.logistic i * Ideal.tanh g

/-- The new hidden state from the output pre-activation and the new cell state. -/
def cellH (o c' : EReal) : EReal := Ideal.logistic o * Ideal.tanh c'

/-- The cell state with every logistic spelled out is cellC. -/
theorem cellC_spelled (i f g c : EReal) :
    Ideal.div 1 (1 + Ideal.exp (-f)) * c + Ideal.div 1 (1 + Ideal.exp (-i)) * Ideal.tanh g = cellC i f g c := rfl

/-- The hidden state with the logistic spelled out is cellH. -/
theorem cellH_spelled (o c' : EReal) : Ideal.div 1 (1 + Ideal.exp (-o)) * Ideal.tanh c' = cellH o c' := rfl

/-! ## A table filled row by row from earlier rows -/

section Fill

variable {α : Type} (n : ℕ) (z : α) (par : Fin n → Fin (n + 1)) (f : Fin n → α → α)

/-- The table after the start value and the first k steps, from a table g₀ of arbitrary contents. Steps past n
    do nothing. -/
def fill (g₀ : Fin (n + 1) → α) : ℕ → Fin (n + 1) → α
  | 0 => Function.update g₀ 0 z
  | k + 1 =>
    if h : k < n then
      Function.update (fill g₀ k) ⟨k + 1, Nat.succ_lt_succ h⟩ (f ⟨k, h⟩ (fill g₀ k (par ⟨k, h⟩)))
    else fill g₀ k

/-- Row 0 holds the start value after any number of steps. -/
theorem fill_zero (g₀ : Fin (n + 1) → α) (k : ℕ) : fill n z par f g₀ k 0 = z := by
  induction k with
  | zero => simp [fill]
  | succ k ih =>
    rw [fill]
    split
    · rw [Function.update_of_ne]
      · exact ih
      · intro h; exact absurd (congrArg Fin.val h) (by simp)
    · exact ih

/-- A row already written is not touched by later steps: for j ≤ k the row j after k + 1 steps is the row after k. -/
theorem fill_succ_of_le (g₀ : Fin (n + 1) → α) (k : ℕ) (j : Fin (n + 1)) (hj : j.val ≤ k) :
    fill n z par f g₀ (k + 1) j = fill n z par f g₀ k j := by
  rw [fill]
  split
  · rw [Function.update_of_ne]
    intro h; have := congrArg Fin.val h; simp at this; omega
  · rfl

/-- When each step reads a row written before it, the rows written so far do not depend on the start table. -/
theorem fill_indep (hpar : ∀ i : Fin n, (par i).val ≤ i.val) (g₀ g₁ : Fin (n + 1) → α) (k : ℕ) (j : Fin (n + 1))
    (hj : j.val ≤ k) : fill n z par f g₀ k j = fill n z par f g₁ k j := by
  induction k generalizing j with
  | zero =>
    have : j = 0 := Fin.ext (by simpa using hj)
    subst this; simp [fill]
  | succ k ih =>
    by_cases hjk : j.val ≤ k
    · rw [fill_succ_of_le n z par f g₀ k j hjk, fill_succ_of_le n z par f g₁ k j hjk]; exact ih j hjk
    · have hjk' : j.val = k + 1 := by omega
      rw [fill, fill]
      by_cases h : k < n
      · rw [dif_pos h, dif_pos h]
        have hj' : j = ⟨k + 1, Nat.succ_lt_succ h⟩ := Fin.ext hjk'
        subst hj'
        rw [Function.update_self, Function.update_self, ih (par ⟨k, h⟩) (hpar ⟨k, h⟩)]
      · exact absurd j.isLt (by omega)

/-- Rows written by step k are not touched by any later step. -/
theorem fill_stable (g₀ : Fin (n + 1) → α) (k k' : ℕ) (hk : k ≤ k') (j : Fin (n + 1)) (hj : j.val ≤ k) :
    fill n z par f g₀ k' j = fill n z par f g₀ k j := by
  induction k', hk using Nat.le_induction with
  | base => rfl
  | succ k' hk' ih => rw [fill_succ_of_le n z par f g₀ k' j (by omega)]; exact ih

/-- The filled table: the rows after all n steps, from the constant start table. -/
def filled : Fin (n + 1) → α := fill n z par f (fun _ => z) n

/-- Every row j ≤ k of the table after k ≤ n steps, from any start table, is the filled table's row. -/
theorem fill_eq_filled (hpar : ∀ i : Fin n, (par i).val ≤ i.val) (g₀ : Fin (n + 1) → α) (k : ℕ) (hk : k ≤ n)
    (j : Fin (n + 1)) (hj : j.val ≤ k) : fill n z par f g₀ k j = filled n z par f j := by
  unfold filled
  rw [fill_indep n z par f hpar g₀ (fun _ => z) k j hj]
  exact (fill_stable n z par f (fun _ => z) k n hk j hj).symm

/-- The filled table's row 0 is the start value. -/
theorem filled_zero : filled n z par f 0 = z := fill_zero n z par f _ n

/-- The filled table is the recursion: row i + 1 is f i of row par i. -/
theorem filled_succ (hpar : ∀ i : Fin n, (par i).val ≤ i.val) (i : Fin n) :
    filled n z par f ⟨i.val + 1, Nat.succ_lt_succ i.isLt⟩ = f i (filled n z par f (par i)) := by
  unfold filled
  rw [fill_stable n z par f (fun _ => z) (i.val + 1) n i.isLt ⟨i.val + 1, Nat.succ_lt_succ i.isLt⟩ (le_refl _)]
  rw [fill, dif_pos i.isLt, Function.update_self]
  rw [fill_stable n z par f (fun _ => z) i.val n (le_of_lt i.isLt) (par i) (hpar i)]

/-- What step k < n writes into row k + 1, read from any start table: f k of the filled table's row par k. -/
theorem fill_step (hpar : ∀ i : Fin n, (par i).val ≤ i.val) (g₀ : Fin (n + 1) → α) (k : Fin n) :
    f k (fill n z par f g₀ k.val (par k)) = filled n z par f ⟨k.val + 1, Nat.succ_lt_succ k.isLt⟩ := by
  rw [fill_eq_filled n z par f hpar g₀ k.val (le_of_lt k.isLt) (par k) (hpar k), filled_succ n z par f hpar k]

end Fill

end LibLstmCell

end
-- ==== Proof.KernelIdealBlock.lean ====
/-
  The kernel body's arithmetic, read at one entry of its output block.

  The body is handed a block of 2048 rows of x and of the previous state h, the fused weights and the bias rows.
  It multiplies the state rows by [Wz_h | Wr_h] (512 columns) and the input rows by [Wz_x | Wr_x | Ws_x] (768 columns),
  adds the first 512 columns of the second product and the joined bias row to the first product, takes the
  logistic function of the two halves (the update gate z and the reset gate r), multiplies r * h by Ws_h, adds the last
  256 columns of the input product and the candidate's bias, takes the hyperbolic tangent, and blends
  (1 - z) * h + z * candidate. On the extended reals a change of float format is the identity and a matrix product
  into a zero accumulator is the plain sum of products, so entry (p, c) of the result is the cell's new state at unit c
  computed from row p of h and row p of x.
-/
import proofs.«116972_j83760452207457_2_alg».proof.Proof.Gen.KernelIdeal.Skeleton
import proofs.«116972_j83760452207457_2_alg».proof.Proof.GruCell
import proofs.«116972_j83760452207457_2_alg».proof.Proof.LibPlainDot
import proofs.«116972_j83760452207457_2_alg».proof.Proof.LibLstmCell
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal.Gen
open Idealize.ShloMosaic Idealize.ShloMosaic.ValueIdx GruCell

/-! ## Columns of the fused arrays -/

/-- Column c of the first half of a 512-column array. -/
def colA (c : Fin 256) : Fin 512 := ⟨c.val, by omega⟩
/-- Column 256 + c: the second half of a 512-column array. -/
def colB (c : Fin 256) : Fin 512 := ⟨256 + c.val, by omega⟩
/-- Column q of the first 512 columns of a 768-column array. -/
def wide (q : Fin 512) : Fin 768 := ⟨q.val, by omega⟩
/-- Column 512 + c: the last third of a 768-column array. -/
def colC (c : Fin 256) : Fin 768 := ⟨512 + c.val, by omega⟩

/-! ## The operations that are not entry by entry, read at coordinates -/

/-- The first 512 columns of a [2048, 768] array. -/
theorem slice_wide (x : S2048x768.Idx → EReal) (h : S2048x768.Slices ![0, 0] S2048x512) (p : Fin 2048) (q : Fin 512) :
    extractStridedSlice S2048x512 ![0, 0] x h (ix2 p q) = x (ix2 p (wide q)) :=
  extractStridedSlice_apply _ x h _ _ (fun a => by match a with | ⟨0, _⟩ => exact (Nat.zero_add _).symm | ⟨1, _⟩ => exact (Nat.zero_add _).symm)

/-- The last 256 columns of a [2048, 768] array. -/
theorem slice_colC (x : S2048x768.Idx → EReal) (h : S2048x768.Slices ![0, 512] S2048x256) (p : Fin 2048) (c : Fin 256) :
    extractStridedSlice S2048x256 ![0, 512] x h (ix2 p c) = x (ix2 p (colC c)) :=
  extractStridedSlice_apply _ x h _ _ (fun a => by match a with | ⟨0, _⟩ => exact (Nat.zero_add _).symm | ⟨1, _⟩ => rfl)

/-- The first 256 columns of a [2048, 512] array. -/
theorem slice_colA (x : S2048x512.Idx → EReal) (h : S2048x512.Slices ![0, 0] S2048x256) (p : Fin 2048) (c : Fin 256) :
    extractStridedSlice S2048x256 ![0, 0] x h (ix2 p c) = x (ix2 p (colA c)) :=
  extractStridedSlice_apply _ x h _ _ (fun a => by match a with | ⟨0, _⟩ => exact (Nat.zero_add _).symm | ⟨1, _⟩ => exact (Nat.zero_add _).symm)

/-- The last 256 columns of a [2048, 512] array. -/
theorem slice_colB (x : S2048x512.Idx → EReal) (h : S2048x512.Slices ![0, 256] S2048x256) (p : Fin 2048) (c : Fin 256) :
    extractStridedSlice S2048x256 ![0, 256] x h (ix2 p c) = x (ix2 p (colB c)) :=
  extractStridedSlice_apply _ x h _ _ (fun a => by match a with | ⟨0, _⟩ => exact (Nat.zero_add _).symm | ⟨1, _⟩ => rfl)

/-- A [1, 512] row repeated down 2048 rows. -/
theorem rows512 (x : S1x512.Idx → EReal) (h : S1x512.Broadcasts S2048x512) (p : Fin 2048) (q : Fin 512) :
    broadcastTo S2048x512 x h (ix2 p q) = x (ix2 (0 : Fin 1) q) :=
  broadcastTo_apply x h _ _ (fun a => by match a with | ⟨0, _⟩ => rfl | ⟨1, _⟩ => rfl)

/-- A [1, 256] row repeated down 2048 rows. -/
theorem rows256 (x : S1x256.Idx → EReal) (h : S1x256.Broadcasts S2048x256) (p : Fin 2048) (c : Fin 256) :
    broadcastTo S2048x256 x h (ix2 p c) = x (ix2 (0 : Fin 1) c) :=
  broadcastTo_apply x h _ _ (fun a => by match a with | ⟨0, _⟩ => rfl | ⟨1, _⟩ => rfl)

/-- The state rows times the [256, 512] fused weights, into the zero accumulator. -/
theorem prod512 (a : FVec Ideal S2048x256 .bf16) (b : FVec Ideal S256x512 .bf16) (p : Fin 2048) (q : Fin 512) :
    matmul dot_S2048x256_S256x512_S2048x512_1_0_0_1_n_n none a b (constant S2048x512 .f32 0x00000000#32) (ix2 p q)
      = ∑ k : Fin 256, (a (ix2 p k) : EReal) * b (ix2 k q) :=
  PlainDot.matmul_zero_apply 2048 256 512 none a b (ix2 p q)

/-- The input rows times the [256, 768] fused weights. -/
theorem prod768 (a : FVec Ideal S2048x256 .bf16) (b : FVec Ideal S256x768 .bf16) (p : Fin 2048) (q : Fin 768) :
    matmul dot_S2048x256_S256x768_S2048x768_1_0_0_1_n_n none a b (constant S2048x768 .f32 0x00000000#32) (ix2 p q)
      = ∑ k : Fin 256, (a (ix2 p k) : EReal) * b (ix2 k q) :=
  PlainDot.matmul_zero_apply 2048 256 768 none a b (ix2 p q)

/-- The reset-scaled state rows times the [256, 256] candidate weights. -/
theorem prod256 (a : FVec Ideal S2048x256 .bf16) (b : FVec Ideal S256x256 .bf16) (p : Fin 2048) (c : Fin 256) :
    matmul dot_S2048x256_S256x256_S2048x256_1_0_0_1_n_n none a b (constant S2048x256 .f32 0x00000000#32) (ix2 p c)
      = ∑ k : Fin 256, (a (ix2 p k) : EReal) * b (ix2 k c) :=
  PlainDot.matmul_zero_apply 2048 256 256 none a b (ix2 p c)

theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl

/-! ## The body's value at an entry -/

/-- Entry (p, c) of the body's stored value is the cell's new state at unit c from row p of the state block and row p
    of the input block, when the fused weights and bias rows hold the three gates' weights and biases column block by
    column block. -/
theorem payload_entry (v0 v1 : Vec Ideal S2048x256 .f32) (v4 : Vec Ideal S256x512 .bf16) (v7 : Vec Ideal S256x768 .bf16)
    (v12 : Vec Ideal S1x512 .f32) (v22 : Vec Ideal S256x256 .bf16) (v27 : Vec Ideal S1x256 .f32)
    (Wz Wr Ws : Fin 512 → Fin 256 → EReal) (bz br bs : Fin 256 → EReal)
    (h4z : ∀ k c, v4 (ix2 k (colA c)) = Wz (lo k) c) (h4r : ∀ k c, v4 (ix2 k (colB c)) = Wr (lo k) c)
    (h7z : ∀ k c, v7 (ix2 k (wide (colA c))) = Wz (hi k) c) (h7r : ∀ k c, v7 (ix2 k (wide (colB c))) = Wr (hi k) c)
    (h7s : ∀ k c, v7 (ix2 k (colC c)) = Ws (hi k) c) (h22 : ∀ k c, v22 (ix2 k c) = Ws (lo k) c)
    (h12z : ∀ c, v12 (ix2 (0 : Fin 1) (colA c)) = bz c) (h12r : ∀ c, v12 (ix2 (0 : Fin 1) (colB c)) = br c)
    (h27 : ∀ c, v27 (ix2 (0 : Fin 1) c) = bs c) (p : Fin 2048) (c : Fin 256) :
    k0_pay1 v0 v1 v4 v7 v12 v22 v27 (ix2 p c)
      = entry (fun k => v1 (ix2 p k)) (fun k => v0 (ix2 p k)) Wz bz Wr br Ws bs c := by
  unfold k0_pay1
  simp only [addf_apply, mulf_apply, subf_apply, broadcast_apply, truncf_apply, logistic_at, tanh_at, shapeCast_self,
    slice_colA, slice_colB, slice_colC, slice_wide, rows512, rows256, prod512, prod768, prod256]
  simp only [h4z, h4r, h7z, h7r, h7s, h22, h12z, h12r, h27]
  have one : (FloatOps.ofBits (F := Ideal) FTy.f32 0x3F800000#32 : EReal) = 1 := LibLstmCell.ofBits_one_f32
  rw [one]
  rfl

end Cert.KernelIdeal.Block

end
-- ==== Proof.LibRowVector.lean ====
/-
  A vector made a row, read at coordinates.

  A bias or any per-column vector [n] often reaches a kernel as a row [1, n] (a reshape that adds a leading unit
  axis). Read at (0, q) the row's entry is the vector's entry q: in row-major order the position of (0, q) in
  [1, n] is 0 * n + q = q, the position of q in [n]. This is the row counterpart of the kept-axis column
  [a] -> [a, 1] read at (r, 0).
-/
import Idealize.ShloMosaic.Lib.ValueLayout
import Idealize.ShloMosaic.Lib.Pipeline.Value

namespace RowVector

open Idealize.ShloMosaic Idealize.ShloMosaic.ValueIdx

/-- A vector [n] cast to a row [1, n] reads, at (u, q), the vector's entry q, whatever the unit coordinate u. -/
theorem shapeCast_n_1n_apply {α : Type} {n : ℕ} (v : (⟨1, ![n]⟩ : Shape).Idx → α)
    (h : (⟨1, ![n]⟩ : Shape).ShapeCasts ⟨2, ![1, n]⟩) (u : Fin 1) (q : Fin n) :
    shapeCast ⟨2, ![1, n]⟩ v h (ix2 u q) = v (ix1 q) :=
  shapeCast_apply v h _ _ (by
    have hu : u.val = 0 := by omega
    rw [Shape.rowMajor_val_two, Shape.rowMajor_val_one]
    show q.val = u.val * n + q.val
    rw [hu, Nat.zero_mul, Nat.zero_add])

end RowVector
-- ==== Proof.KernelIdealWhole.lean ====
/-
  The array the kernel's launch leaves: the gated recurrent cell of the program's arguments.

  The fused operands the host prepares are read back column block by column block: the [256, 512] state weights hold
  rows 0 .. 255 of Wz and of Wr side by side, the [256, 768] input weights rows 256 .. 511 of Wz, Wr and Ws, the
  [256, 256] candidate weights rows 0 .. 255 of Ws, the [1, 512] row bz and br, the [1, 256] row bs. At grid point t
  the kernel is handed rows 2048 t .. 2048 t + 2047 of x and of h and the whole of every fused operand, so what it
  writes back is rows 2048 t .. 2048 t + 2047 of the cell of the whole arguments (every entry of the cell depends on one
  row of x and of h only). The eight points' blocks tile the 16384 rows, so the output array ends holding the cell.
-/
import proofs.«116972_j83760452207457_2_alg».proof.Proof.KernelIdealLaunched
import proofs.«116972_j83760452207457_2_alg».proof.Proof.KernelIdealBlock
import proofs.«116972_j83760452207457_2_alg».proof.Proof.GruCell
import proofs.«116972_j83760452207457_2_alg».proof.Proof.LibRowVector
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Whole

open Cert.KernelIdeal.Gen Cert.KernelIdeal.Launched Cert.KernelIdeal.Block
open Idealize.ShloMosaic Idealize.ShloMosaic.TcCoe Idealize.SL.Sem Idealize.ShloMosaic.ValueIdx GruCell
open Idealize.ShloMosaic.Pipeline (Dat)

variable (m : (ℓ : Loc nD τ sig) → Buf (Elt Ideal) ℓ) (ρ : Dev nD → PrngReg)

/-! ## The arguments, as arrays of extended reals -/

abbrev argX (c : Dev nD) : S16384x256.Idx → EReal := m ((c : Thread nD τ).loc main_arg0)
abbrev argH (c : Dev nD) : S16384x256.Idx → EReal := m ((c : Thread nD τ).loc main_arg1)
abbrev argWz (c : Dev nD) : S512x256.Idx → EReal := m ((c : Thread nD τ).loc main_arg2)
abbrev argBz (c : Dev nD) : S256.Idx → EReal := m ((c : Thread nD τ).loc main_arg3)
abbrev argWr (c : Dev nD) : S512x256.Idx → EReal := m ((c : Thread nD τ).loc main_arg4)
abbrev argBr (c : Dev nD) : S256.Idx → EReal := m ((c : Thread nD τ).loc main_arg5)
abbrev argWs (c : Dev nD) : S512x256.Idx → EReal := m ((c : Thread nD τ).loc main_arg6)
abbrev argBs (c : Dev nD) : S256.Idx → EReal := m ((c : Thread nD τ).loc main_arg7)

/-- The array the launch leaves in the result buffer: the cell of the arguments. -/
abbrev result (c : Dev nD) : S16384x256.Idx → EReal :=
  cell (argX m c) (argH m c) (argWz m c) (argBz m c) (argWr m c) (argBr m c) (argWs m c) (argBs m c)

/-! ## The fused operands the host prepares, read at coordinates -/

/-- Rows 0 .. 255 of a [512, 256] array. -/
theorem top_rows (x : S512x256.Idx → EReal) (k q : Fin 256) :
    extractStridedSlice S256x256 ![0, 0] x slices_S512x256_S256x256_0_0 (ix2 k q) = x (ix2 (lo k) q) :=
  extractStridedSlice_apply _ x _ _ _ (fun a => by match a with | ⟨0, _⟩ => exact (Nat.zero_add _).symm | ⟨1, _⟩ => exact (Nat.zero_add _).symm)

/-- Rows 256 .. 511 of a [512, 256] array. -/
theorem bottom_rows (x : S512x256.Idx → EReal) (k q : Fin 256) :
    extractStridedSlice S256x256 ![256, 0] x slices_S512x256_S256x256_256_0 (ix2 k q) = x (ix2 (hi k) q) :=
  extractStridedSlice_apply _ x _ _ _ (fun a => by match a with | ⟨0, _⟩ => rfl | ⟨1, _⟩ => exact (Nat.zero_add _).symm)

/-- The state weights: [Wz rows 0..255 | Wr rows 0..255]. -/
theorem entry_v7 (c : Dev nD) : (atEntry m c main_v7 : S256x512.Idx → EReal)
    = concatenate S256x512 1
        [⟨S256x256, extractStridedSlice S256x256 ![0, 0] (argWz m c) slices_S512x256_S256x256_0_0⟩,
         ⟨S256x256, extractStridedSlice S256x256 ![0, 0] (argWr m c) slices_S512x256_S256x256_0_0⟩]
        concatenates_S256x256_S256x256_S256x512_d1 := by
  dsimp only [atEntry, hostOps0]
  after_results
  rfl

theorem v7_colA (c : Dev nD) (k q : Fin 256) : (atEntry m c main_v7 : S256x512.Idx → EReal) (ix2 k (colA q)) = argWz m c (ix2 (lo k) q) := by
  rw [entry_v7]
  exact (concatenate_pair_apply_left (t := S256x512) (s₁ := S256x256) (s₂ := S256x256) 1 _ _ concatenates_S256x256_S256x256_S256x512_d1 (ix2 k (colA q)) rfl (ix2 k q)
    (fun d => by match d with | ⟨0, _⟩ => rfl | ⟨1, _⟩ => rfl)).trans (top_rows _ k q)

theorem v7_colB (c : Dev nD) (k q : Fin 256) : (atEntry m c main_v7 : S256x512.Idx → EReal) (ix2 k (colB q)) = argWr m c (ix2 (lo k) q) := by
  rw [entry_v7]
  exact (concatenate_pair_apply_right (t := S256x512) (s₁ := S256x256) (s₂ := S256x256) 1 _ _ concatenates_S256x256_S256x256_S256x512_d1 (ix2 k (colB q)) rfl rfl (ix2 k q)
    (fun d hd => by match d, hd with | ⟨0, _⟩, _ => rfl | ⟨1, _⟩, hd => exact absurd rfl hd)
    (by show q.val + 256 = 256 + q.val; omega)).trans (top_rows _ k q)

/-- The input weights: [Wz rows 256..511 | Wr rows 256..511 | Ws rows 256..511]. -/
theorem entry_v9 (c : Dev nD) : (atEntry m c main_v9 : S256x768.Idx → EReal)
    = concatenate S256x768 1
        [⟨S256x256, extractStridedSlice S256x256 ![256, 0] (argWz m c) slices_S512x256_S256x256_256_0⟩,
         ⟨S256x256, extractStridedSlice S256x256 ![256, 0] (argWr m c) slices_S512x256_S256x256_256_0⟩,
         ⟨S256x256, extractStridedSlice S256x256 ![256, 0] (argWs m c) slices_S512x256_S256x256_256_0⟩]
        concatenates_S256x256_S256x256_S256x256_S256x768_d1 := by
  dsimp only [atEntry, hostOps0]
  after_results
  rfl

theorem v9_z (c : Dev nD) (k q : Fin 256) : (atEntry m c main_v9 : S256x768.Idx → EReal) (ix2 k (wide (colA q))) = argWz m c (ix2 (hi k) q) := by
  rw [entry_v9]
  exact (concatenate_apply_piece (t := S256x768) 1
    [⟨S256x256, extractStridedSlice S256x256 ![256, 0] (argWz m c) slices_S512x256_S256x256_256_0⟩,
     ⟨S256x256, extractStridedSlice S256x256 ![256, 0] (argWr m c) slices_S512x256_S256x256_256_0⟩,
     ⟨S256x256, extractStridedSlice S256x256 ![256, 0] (argWs m c) slices_S512x256_S256x256_256_0⟩]
    concatenates_S256x256_S256x256_S256x256_S256x768_d1 (ix2 k (wide (colA q)))
    0 (by show (0 : Nat) < 3; omega) S256x256 _ rfl rfl 0 rfl (ix2 k q)
    (fun d hd => by match d, hd with | ⟨0, _⟩, _ => rfl | ⟨1, _⟩, hd => exact absurd rfl hd)
    (by show 0 + q.val = q.val; omega)).trans (bottom_rows _ k q)

theorem v9_r (c : Dev nD) (k q : Fin 256) : (atEntry m c main_v9 : S256x768.Idx → EReal) (ix2 k (wide (colB q))) = argWr m c (ix2 (hi k) q) := by
  rw [entry_v9]
  exact (concatenate_apply_piece (t := S256x768) 1
    [⟨S256x256, extractStridedSlice S256x256 ![256, 0] (argWz m c) slices_S512x256_S256x256_256_0⟩,
     ⟨S256x256, extractStridedSlice S256x256 ![256, 0] (argWr m c) slices_S512x256_S256x256_256_0⟩,
     ⟨S256x256, extractStridedSlice S256x256 ![256, 0] (argWs m c) slices_S512x256_S256x256_256_0⟩]
    concatenates_S256x256_S256x256_S256x256_S256x768_d1 (ix2 k (wide (colB q)))
    1 (by show (1 : Nat) < 3; omega) S256x256 _ rfl rfl 256 rfl (ix2 k q)
    (fun d hd => by match d, hd with | ⟨0, _⟩, _ => rfl | ⟨1, _⟩, hd => exact absurd rfl hd)
    rfl).trans (bottom_rows _ k q)

theorem v9_s (c : Dev nD) (k q : Fin 256) : (atEntry m c main_v9 : S256x768.Idx → EReal) (ix2 k (colC q)) = argWs m c (ix2 (hi k) q) := by
  rw [entry_v9]
  exact (concatenate_apply_piece (t := S256x768) 1
    [⟨S256x256, extractStridedSlice S256x256 ![256, 0] (argWz m c) slices_S512x256_S256x256_256_0⟩,
     ⟨S256x256, extractStridedSlice S256x256 ![256, 0] (argWr m c) slices_S512x256_S256x256_256_0⟩,
     ⟨S256x256, extractStridedSlice S256x256 ![256, 0] (argWs m c) slices_S512x256_S256x256_256_0⟩]
    concatenates_S256x256_S256x256_S256x256_S256x768_d1 (ix2 k (colC q))
    2 (by show (2 : Nat) < 3; omega) S256x256 _ rfl rfl 512 rfl (ix2 k q)
    (fun d hd => by match d, hd with | ⟨0, _⟩, _ => rfl | ⟨1, _⟩, hd => exact absurd rfl hd)
    rfl).trans (bottom_rows _ k q)

/-- The candidate's state weights: rows 0 .. 255 of Ws. -/
theorem entry_v10 (c : Dev nD) : (atEntry m c main_v10 : S256x256.Idx → EReal)
    = extractStridedSlice S256x256 ![0, 0] (argWs m c) slices_S512x256_S256x256_0_0 := by
  dsimp only [atEntry, hostOps0]
  after_results
  rfl

theorem v10_at (c : Dev nD) (k q : Fin 256) : (atEntry m c main_v10 : S256x256.Idx → EReal) (ix2 k q) = argWs m c (ix2 (lo k) q) := by
  rw [entry_v10]; exact top_rows _ k q

/-- The gates' bias row: bz and br joined, made a row. -/
theorem entry_v12 (c : Dev nD) : (atEntry m c main_v12 : S1x512.Idx → EReal)
    = shapeCast S1x512 (concatenate S512 0 [⟨S256, argBz m c⟩, ⟨S256, argBr m c⟩] concatenates_S256_S256_S512_d0) shapeCasts_S512_S1x512 := by
  dsimp only [atEntry, hostOps0]
  after_results
  rfl

theorem v12_z (c : Dev nD) (q : Fin 256) : (atEntry m c main_v12 : S1x512.Idx → EReal) (ix2 (0 : Fin 1) (colA q)) = argBz m c (ix1 q) := by
  rw [entry_v12]
  exact (RowVector.shapeCast_n_1n_apply _ shapeCasts_S512_S1x512 0 (colA q)).trans
    (concatenate_pair_apply_left (t := S512) (s₁ := S256) (s₂ := S256) 0 _ _ concatenates_S256_S256_S512_d0 (ix1 (colA q)) rfl (ix1 q)
      (fun d => by match d with | ⟨0, _⟩ => rfl))

theorem v12_r (c : Dev nD) (q : Fin 256) : (atEntry m c main_v12 : S1x512.Idx → EReal) (ix2 (0 : Fin 1) (colB q)) = argBr m c (ix1 q) := by
  rw [entry_v12]
  exact (RowVector.shapeCast_n_1n_apply _ shapeCasts_S512_S1x512 0 (colB q)).trans
    (concatenate_pair_apply_right (t := S512) (s₁ := S256) (s₂ := S256) 0 _ _ concatenates_S256_S256_S512_d0 (ix1 (colB q)) rfl rfl (ix1 q)
      (fun d hd => by match d, hd with | ⟨0, _⟩, hd => exact absurd rfl hd)
      (by show q.val + 256 = 256 + q.val; omega))

/-- The candidate's bias row. -/
theorem entry_v13 (c : Dev nD) : (atEntry m c main_v13 : S1x256.Idx → EReal) = shapeCast S1x256 (argBs m c) shapeCasts_S256_S1x256 := by
  dsimp only [atEntry, hostOps0]
  after_results
  rfl

theorem v13_at (c : Dev nD) (q : Fin 256) : (atEntry m c main_v13 : S1x256.Idx → EReal) (ix2 (0 : Fin 1) q) = argBs m c (ix1 q) := by
  rw [entry_v13]; exact RowVector.shapeCast_n_1n_apply _ shapeCasts_S256_S1x256 0 q

/-! ## The blocks the kernel is handed, read at coordinates -/

/-- Where the operands' blocks sit: the row blocks of x, of h and of the result move with the point, -/
theorem rows_idx : ∀ t : Fin cfg0.N, win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0 :=
  (by decide +kernel : ∀ t : Fin grid0.N, _)

/-- and every fused operand's one block stays at the origin. -/
theorem whole_idx : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row 2048 t + p of a [16384, 256] array: row p of the block of point t. -/
def rowOf (t : Fin cfg0.N) (p : Fin 2048) : Fin 16384 :=
  ⟨t.val * 2048 + p.val, by have := t.isLt; have h : cfg0.N = 8 := N_0; omega⟩

theorem block_x (c : Dev nD) (t : Fin cfg0.N) (p : Fin 2048) (k : Fin 256) :
    (blockAt m c 0 t : Vec Ideal S2048x256 .f32) (ix2 p k) = argX m c (ix2 (rowOf t p) k) := by
  unfold blockAt
  rw [View.read_apply]
  show atEntry m c main_arg0 _ = _
  rw [atEntry_arg0]
  refine congrArg _ (funext fun a => Fin.ext ?_)
  obtain ⟨e0, e1, -⟩ := rows_idx t
  match a with
  | ⟨0, _⟩ => show win0_0.index t 0 * 2048 + 1 * p.val = t.val * 2048 + p.val; rw [e0]; omega
  | ⟨1, _⟩ => show win0_0.index t 1 * 256 + 1 * k.val = k.val; rw [e1]; omega

theorem block_h (c : Dev nD) (t : Fin cfg0.N) (p : Fin 2048) (k : Fin 256) :
    (blockAt m c 1 t : Vec Ideal S2048x256 .f32) (ix2 p k) = argH m c (ix2 (rowOf t p) k) := by
  unfold blockAt
  rw [View.read_apply]
  show atEntry m c main_arg1 _ = _
  rw [atEntry_arg1]
  refine congrArg _ (funext fun a => Fin.ext ?_)
  obtain ⟨-, -, e0, e1, -⟩ := rows_idx t
  match a with
  | ⟨0, _⟩ => show win0_1.index t 0 * 2048 + 1 * p.val = t.val * 2048 + p.val; rw [e0]; omega
  | ⟨1, _⟩ => show win0_1.index t 1 * 256 + 1 * k.val = k.val; rw [e1]; omega

/-- A fused operand's block at any point is the whole operand. -/
theorem block_w2 (c : Dev nD) (t : Fin cfg0.N) (y : S256x512.Idx) :
    (blockAt m c 2 t : Vec Ideal S256x512 .bf16) y = (atEntry m c main_v7 : S256x512.Idx → EReal) y := by
  unfold blockAt
  rw [View.read_apply]
  show atEntry m c main_v7 _ = _
  refine congrArg _ (funext fun a => Fin.ext ?_)
  obtain ⟨e0, e1, -⟩ := whole_idx t
  match a with
  | ⟨0, _⟩ => show win0_2.index t 0 * 256 + 1 * (y 0).val = (y 0).val; rw [e0]; omega
  | ⟨1, _⟩ => show win0_2.index t 1 * 512 + 1 * (y 1).val = (y 1).val; rw [e1]; omega

theorem block_w3 (c : Dev nD) (t : Fin cfg0.N) (y : S256x768.Idx) :
    (blockAt m c 3 t : Vec Ideal S256x768 .bf16) y = (atEntry m c main_v9 : S256x768.Idx → EReal) y := by
  unfold blockAt
  rw [View.read_apply]
  show atEntry m c main_v9 _ = _
  refine congrArg _ (funext fun a => Fin.ext ?_)
  obtain ⟨-, -, e0, e1, -⟩ := whole_idx t
  match a with
  | ⟨0, _⟩ => show win0_3.index t 0 * 256 + 1 * (y 0).val = (y 0).val; rw [e0]; omega
  | ⟨1, _⟩ => show win0_3.index t 1 * 768 + 1 * (y 1).val = (y 1).val; rw [e1]; omega

theorem block_w4 (c : Dev nD) (t : Fin cfg0.N) (y : S256x256.Idx) :
    (blockAt m c 4 t : Vec Ideal S256x256 .bf16) y = (atEntry m c main_v10 : S256x256.Idx → EReal) y := by
  unfold blockAt
  rw [View.read_apply]
  show atEntry m c main_v10 _ = _
  refine congrArg _ (funext fun a => Fin.ext ?_)
  obtain ⟨-, -, -, -, e0, e1, -⟩ := whole_idx t
  match a with
  | ⟨0, _⟩ => show win0_4.index t 0 * 256 + 1 * (y 0).val = (y 0).val; rw [e0]; omega
  | ⟨1, _⟩ => show win0_4.index t 1 * 256 + 1 * (y 1).val = (y 1).val; rw [e1]; omega

theorem block_w5 (c : Dev nD) (t : Fin cfg0.N) (y : S1x512.Idx) :
    (blockAt m c 5 t : Vec Ideal S1x512 .f32) y = (atEntry m c main_v12 : S1x512.Idx → EReal) y := by
  unfold blockAt
  rw [View.read_apply]
  show atEntry m c main_v12 _ = _
  refine congrArg _ (funext fun a => Fin.ext ?_)
  obtain ⟨-, -, -, -, -, -, e0, e1, -⟩ := whole_idx t
  match a with
  | ⟨0, _⟩ => show win0_5.index t 0 * 1 + 1 * (y 0).val = (y 0).val; rw [e0]; omega
  | ⟨1, _⟩ => show win0_5.index t 1 * 512 + 1 * (y 1).val = (y 1).val; rw [e1]; omega

theorem block_w6 (c : Dev nD) (t : Fin cfg0.N) (y : S1x256.Idx) :
    (blockAt m c 6 t : Vec Ideal S1x256 .f32) y = (atEntry m c main_v13 : S1x256.Idx → EReal) y := by
  unfold blockAt
  rw [View.read_apply]
  show atEntry m c main_v13 _ = _
  refine congrArg _ (funext fun a => Fin.ext ?_)
  obtain ⟨-, -, -, -, -, -, -, -, e0, e1⟩ := whole_idx t
  match a with
  | ⟨0, _⟩ => show win0_6.index t 0 * 1 + 1 * (y 0).val = (y 0).val; rw [e0]; omega
  | ⟨1, _⟩ => show win0_6.index t 1 * 256 + 1 * (y 1).val = (y 1).val; rw [e1]; omega

/-! ## What a point writes back, and the array the eight points leave -/

theorem origin : (![0, 0] : Fin 2 → Nat) = fun _ => 0 := funext fun a => by fin_cases a <;> rfl

/-- What point t writes back is rows 2048 t .. 2048 t + 2047 of the cell of the arguments. -/
theorem flushed_eq (c : Dev nD) (t : Fin cfg0.N) :
    (pdata m 0 c).flushed 7 t = ((cfg0.win 7).blk t).view.read (Elt Ideal) (result m c) := by
  show (cfg0.win 7).cut (grid0.coords t) ((pdata m 0 c).after 7 t) = _
  rw [after_7]
  unfold written
  rw [View.canon_unit_zero origin]
  simp only [View.ld_unit_zero (S := S2048x256) origin, View.ld_unit_zero (S := S256x512) origin, View.ld_unit_zero (S := S256x768) origin,
    View.ld_unit_zero (S := S256x256) origin, View.ld_unit_zero (S := S1x512) origin, View.ld_unit_zero (S := S1x256) origin]
  funext y
  obtain ⟨p, q, rfl⟩ : ∃ (p : Fin 2048) (q : Fin 256), y = ix2 p q := ⟨y 0, y 1, eq_ix2 y⟩
  show k0_pay1 (blockAt m c 0 t) (blockAt m c 1 t) (blockAt m c 2 t) (blockAt m c 3 t) (blockAt m c 5 t) (blockAt m c 4 t)
      (blockAt m c 6 t) (ix2 p q) = result m c (((cfg0.win 7).blk t).view.emb (ix2 p q))
  have hemb : ((cfg0.win 7).blk t).view.emb (ix2 p q) = ix2 (rowOf t p) q := by
    funext a; apply Fin.ext
    obtain ⟨-, -, -, -, e0, e1⟩ := rows_idx t
    match a with
    | ⟨0, _⟩ => show win0_7.index t 0 * 2048 + 1 * p.val = t.val * 2048 + p.val; rw [e0]; omega
    | ⟨1, _⟩ => show win0_7.index t 1 * 256 + 1 * q.val = q.val; rw [e1]; omega
  rw [hemb]
  refine (payload_entry _ _ _ _ _ _ _ (mat (argWz m c)) (mat (argWr m c)) (mat (argWs m c)) (vec (argBz m c)) (vec (argBr m c))
    (vec (argBs m c))
    (fun k c' => (block_w2 m c t _).trans (v7_colA m c k c')) (fun k c' => (block_w2 m c t _).trans (v7_colB m c k c'))
    (fun k c' => (block_w3 m c t _).trans (v9_z m c k c')) (fun k c' => (block_w3 m c t _).trans (v9_r m c k c'))
    (fun k c' => (block_w3 m c t _).trans (v9_s m c k c')) (fun k c' => (block_w4 m c t _).trans (v10_at m c k c'))
    (fun c' => (block_w5 m c t _).trans (v12_z m c c')) (fun c' => (block_w5 m c t _).trans (v12_r m c c'))
    (fun c' => (block_w6 m c t _).trans (v13_at m c c')) p q).trans ?_
  have hh : (fun k => (blockAt m c 1 t : Vec Ideal S2048x256 .f32) (ix2 p k)) = row (argH m c) (rowOf t p) :=
    funext fun k => block_h m c t p k
  have hx : (fun k => (blockAt m c 0 t : Vec Ideal S2048x256 .f32) (ix2 p k)) = row (argX m c) (rowOf t p) :=
    funext fun k => block_x m c t p k
  rw [hh, hx]
  exact (cell_apply (argX m c) (argH m c) (argWz m c) (argBz m c) (argWr m c) (argBr m c) (argWs m c) (argBs m c) (rowOf t p) q).symm

/-- An index of the result array is in point t's block when its row is one of rows 2048 t .. 2048 t + 2047. -/
theorem mem_block (t : Fin cfg0.N) (i : S16384x256.Idx) :
    i ∈ ((cfg0.win 7).blk t).view.set ↔ ∀ a : Fin 2, win0_7.index t a * S2048x256.size a ≤ (i a).val ∧ (i a).val < win0_7.index t a * S2048x256.size a + S2048x256.size a := by
  show i ∈ ((View.whole main_v14).slice (win0_7.rect t)).set ↔ _
  rw [View.set_slice_whole, Rect.mem_set_unit]
  exact Iff.rfl

/-- Every row of the result array is in the block of the point numbered by the row divided by 2048. -/
theorem covered (i : S16384x256.Idx) : ∃ t : Fin cfg0.N, (cfg0.win 7).flush t = true ∧ i ∈ ((cfg0.win 7).blk t).view.set := by
  have hN : cfg0.N = 8 := N_0
  have hi0 : (i 0).val < 16384 := (i 0).isLt
  have hi1 : (i 1).val < 256 := (i 1).isLt
  let t : Fin cfg0.N := ⟨(i 0).val / 2048, by omega⟩
  refine ⟨t, flush0_7 t, ?_⟩
  rw [mem_block]
  obtain ⟨-, -, -, -, e0, e1⟩ := rows_idx t
  have ht : t.val = (i 0).val / 2048 := rfl
  intro a
  match a with
  | ⟨0, _⟩ => show win0_7.index t 0 * 2048 ≤ (i 0).val ∧ (i 0).val < win0_7.index t 0 * 2048 + 2048; rw [e0, ht]; omega
  | ⟨1, _⟩ => show win0_7.index t 1 * 256 ≤ (i 1).val ∧ (i 1).val < win0_7.index t 1 * 256 + 256; rw [e1]; omega

/-- The result array after the launch is the cell of the arguments. -/
theorem final (c : Dev nD) : (pdata m 0 c).arrAt 7 cfg0.N = result m c :=
  (pdata m 0 c).arrAt_eq_of_cover 7 (result m c) (fun t _ => flushed_eq m c t) covered

/-- Every weakly fair execution of the kernel's program terminates without a fault, with the result buffer holding
    the cell of the arguments and the arguments unchanged. -/
theorem run : θ_run defs (onTc (τ := τ) (main (F := Ideal))) ⟨m, fun _ => 0, ρ⟩ fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 7).trans (final m c),
      ((h c).1 0).trans (((pdata m 0 c).arrAt_in 0 rfl _).trans ((pdata_A m c 0).trans (atEntry_arg0 m c))),
      ((h c).1 1).trans (((pdata m 0 c).arrAt_in 1 rfl _).trans ((pdata_A m c 1).trans (atEntry_arg1 m c))),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c)⟩)
    (run_launched m ρ)

end Cert.KernelIdeal.Whole

end
-- ==== Proof.RefCell.lean ====
/-
  The reference program computes the gated recurrent cell.

  The reference joins the previous state h and the input x along the columns into one [16384, 512] array and
  contracts it with each 512-row weight matrix; a sum over 512 positions is the sum over the first 256 (where the
  joined row holds h) plus the sum over the last 256 (where it holds x), so each gate's pre-activation is the cell's.
  The bias reaches it broadcast down the rows. The logistic function is spelled 1 / (1 + exp (-p)) with the constant
  one, which is the logistic function on the extended reals by definition. The candidate contracts the join of the
  reset-scaled state with x. Nothing is assumed finite: only the splitting of a finite sum is used.
-/
import proofs.«116972_j83760452207457_2_alg».proof.Defs
import proofs.«116972_j83760452207457_2_alg».proof.Proof.RunP
import proofs.«116972_j83760452207457_2_alg».proof.Proof.ReadP
import proofs.«116972_j83760452207457_2_alg».proof.Proof.GruCell
import proofs.«116972_j83760452207457_2_alg».proof.Proof.LibPlainDot
import proofs.«116972_j83760452207457_2_alg».proof.Proof.LibLstmCell
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx GruCell

/-- Two [16384, 256] arrays joined along the columns, read in the first 256 columns: the first array. -/
theorem concat_lo (a b : (⟨S16384x256, .f32⟩ : BufTy).Contents (Elt Ideal)) (r : Fin 16384) (k : Fin 256) :
    concatenate S16384x512 1 [⟨S16384x256, a⟩, ⟨S16384x256, b⟩] concatenates_S16384x256_S16384x256_S16384x512_d1
      (ix2 r (lo k)) = a (ix2 r k) :=
  concatenate_pair_apply_left 1 a b _ (ix2 r (lo k)) rfl (ix2 r k)
    (fun d => by match d with | ⟨0, _⟩ => rfl | ⟨1, _⟩ => rfl)

/-- Two [16384, 256] arrays joined along the columns, read in the last 256 columns: the second array. -/
theorem concat_hi (a b : (⟨S16384x256, .f32⟩ : BufTy).Contents (Elt Ideal)) (r : Fin 16384) (k : Fin 256) :
    concatenate S16384x512 1 [⟨S16384x256, a⟩, ⟨S16384x256, b⟩] concatenates_S16384x256_S16384x256_S16384x512_d1
      (ix2 r (hi k)) = b (ix2 r k) :=
  concatenate_pair_apply_right 1 a b _ (ix2 r (hi k)) rfl rfl (ix2 r k)
    (fun d hd => by match d, hd with | ⟨0, _⟩, _ => rfl | ⟨1, _⟩, hd => exact absurd rfl hd)
    (by show k.val + 256 = 256 + k.val; omega)

/-- The left operand's index of the first contraction at entry (r, c) and position k is (r, k). -/
theorem lidx1 (r : Fin 16384) (c : Fin 256) (k : Fin 512) : lidx_main_v1 (ix2 r c) k = ix2 r k :=
  funext fun d => by match d with | ⟨0, _⟩ => rfl | ⟨1, _⟩ => rfl
theorem ridx1 (r : Fin 16384) (c : Fin 256) (k : Fin 512) : ridx_main_v1 (ix2 r c) k = ix2 k c :=
  funext fun d => by match d with | ⟨0, _⟩ => rfl | ⟨1, _⟩ => rfl
theorem lidx11 (r : Fin 16384) (c : Fin 256) (k : Fin 512) : lidx_main_v11 (ix2 r c) k = ix2 r k :=
  funext fun d => by match d with | ⟨0, _⟩ => rfl | ⟨1, _⟩ => rfl
theorem ridx11 (r : Fin 16384) (c : Fin 256) (k : Fin 512) : ridx_main_v11 (ix2 r c) k = ix2 k c :=
  funext fun d => by match d with | ⟨0, _⟩ => rfl | ⟨1, _⟩ => rfl
theorem lidx23 (r : Fin 16384) (c : Fin 256) (k : Fin 512) : lidx_main_v23 (ix2 r c) k = ix2 r k :=
  funext fun d => by match d with | ⟨0, _⟩ => rfl | ⟨1, _⟩ => rfl
theorem ridx23 (r : Fin 16384) (c : Fin 256) (k : Fin 512) : ridx_main_v23 (ix2 r c) k = ix2 k c :=
  funext fun d => by match d with | ⟨0, _⟩ => rfl | ⟨1, _⟩ => rfl

/-- A bias [256] broadcast to [1, 256] and then to [16384, 256], read at (r, c): the bias at c. -/
theorem bias3 (b : (⟨S256, .f32⟩ : BufTy).Contents (Elt Ideal)) (r : Fin 16384) (c : Fin 256) :
    val_main_v3 (F := Ideal) b (ix2 r c) = b (ix1 c) := by
  rw [val_main_v3_apply, val_main_v2_apply]
  exact congrArg b (funext fun d => by match d with | ⟨0, _⟩ => rfl)
theorem bias13 (b : (⟨S256, .f32⟩ : BufTy).Contents (Elt Ideal)) (r : Fin 16384) (c : Fin 256) :
    val_main_v13 (F := Ideal) b (ix2 r c) = b (ix1 c) := by
  rw [val_main_v13_apply, val_main_v12_apply]
  exact congrArg b (funext fun d => by match d with | ⟨0, _⟩ => rfl)
theorem bias25 (b : (⟨S256, .f32⟩ : BufTy).Contents (Elt Ideal)) (r : Fin 16384) (c : Fin 256) :
    val_main_v25 (F := Ideal) b (ix2 r c) = b (ix1 c) := by
  rw [val_main_v25_apply, val_main_v24_apply]
  exact congrArg b (funext fun d => by match d with | ⟨0, _⟩ => rfl)

/-- The broadcast constant one, read anywhere, is the extended real 1. -/
theorem one7 (i : S16384x256.Idx) : val_main_v7 (F := Ideal) i = 1 := by
  rw [val_main_v7_apply, val_main_cst_apply]; exact LibLstmCell.ofBits_one_f32
theorem one9 (i : S16384x256.Idx) : val_main_v9 (F := Ideal) i = 1 := by
  rw [val_main_v9_apply, val_main_cst_0_apply]; exact LibLstmCell.ofBits_one_f32
theorem one17 (i : S16384x256.Idx) : val_main_v17 (F := Ideal) i = 1 := by
  rw [val_main_v17_apply, val_main_cst_1_apply]; exact LibLstmCell.ofBits_one_f32
theorem one19 (i : S16384x256.Idx) : val_main_v19 (F := Ideal) i = 1 := by
  rw [val_main_v19_apply, val_main_cst_2_apply]; exact LibLstmCell.ofBits_one_f32
theorem one28 (i : S16384x256.Idx) : val_main_v28 (F := Ideal) i = 1 := by
  rw [val_main_v28_apply, val_main_cst_3_apply]; exact LibLstmCell.ofBits_one_f32

/-- The contraction of the joined rows [a, b] with a 512-row weight matrix, plus the bias, is the gate's
    pre-activation from the row of a and the row of b. -/
theorem joined_pre (a b : (⟨S16384x256, .f32⟩ : BufTy).Contents (Elt Ideal)) (W : (⟨S512x256, .f32⟩ : BufTy).Contents (Elt Ideal))
    (bias : (⟨S256, .f32⟩ : BufTy).Contents (Elt Ideal)) (r : Fin 16384) (c : Fin 256) :
    (∑ k : Fin 512, concatenate S16384x512 1 [⟨S16384x256, a⟩, ⟨S16384x256, b⟩]
        concatenates_S16384x256_S16384x256_S16384x512_d1 (ix2 r k) * W (ix2 k c)) + bias (ix1 c)
      = pre (row a r) (row b r) (mat W) (vec bias) c := by
  unfold pre
  rw [sum_halves]
  refine congrArg₂ (· + ·) (congrArg₂ (· + ·) (Finset.sum_congr rfl fun k _ => ?_) (Finset.sum_congr rfl fun k _ => ?_)) rfl
  · exact congrArg (· * W (ix2 (lo k) c)) (concat_lo a b r k)
  · exact congrArg (· * W (ix2 (hi k) c)) (concat_hi a b r k)

/-- The update gate's pre-activation at (r, c): the contraction of the joined row [h, x] with Wz, plus bz. -/
theorem v4_eq (x0 x1 : (⟨S16384x256, .f32⟩ : BufTy).Contents (Elt Ideal)) (x2 : (⟨S512x256, .f32⟩ : BufTy).Contents (Elt Ideal))
    (x3 : (⟨S256, .f32⟩ : BufTy).Contents (Elt Ideal)) (r : Fin 16384) (c : Fin 256) :
    val_main_v4 (F := Ideal) x0 x1 x2 x3 (ix2 r c) = pre (row x1 r) (row x0 r) (mat x2) (vec x3) c := by
  rw [val_main_v4_apply, val_main_v1_apply, bias3]
  simp only [lidx1, ridx1]
  exact joined_pre x1 x0 x2 x3 r c

/-- The reset gate's pre-activation at (r, c). -/
theorem v14_eq (x0 x1 : (⟨S16384x256, .f32⟩ : BufTy).Contents (Elt Ideal)) (x4 : (⟨S512x256, .f32⟩ : BufTy).Contents (Elt Ideal))
    (x5 : (⟨S256, .f32⟩ : BufTy).Contents (Elt Ideal)) (r : Fin 16384) (c : Fin 256) :
    val_main_v14 (F := Ideal) x0 x1 x4 x5 (ix2 r c) = pre (row x1 r) (row x0 r) (mat x4) (vec x5) c := by
  rw [val_main_v14_apply, val_main_v11_apply, bias13]
  simp only [lidx11, ridx11]
  exact joined_pre x1 x0 x4 x5 r c

/-- The update gate at (r, c): the logistic function, spelled 1 / (1 + exp (-p)), of its pre-activation. -/
theorem v10_eq (x0 x1 : (⟨S16384x256, .f32⟩ : BufTy).Contents (Elt Ideal)) (x2 : (⟨S512x256, .f32⟩ : BufTy).Contents (Elt Ideal))
    (x3 : (⟨S256, .f32⟩ : BufTy).Contents (Elt Ideal)) (r : Fin 16384) (c : Fin 256) :
    val_main_v10 (F := Ideal) x0 x1 x2 x3 (ix2 r c) = Ideal.logistic (pre (row x1 r) (row x0 r) (mat x2) (vec x3) c) := by
  rw [val_main_v10_apply, val_main_v8_apply, val_main_v6_apply, val_main_v5_apply, one9, one7, v4_eq]
  exact LibLstmCell.logistic_spelled _

/-- The reset gate at (r, c). -/
theorem v20_eq (x0 x1 : (⟨S16384x256, .f32⟩ : BufTy).Contents (Elt Ideal)) (x4 : (⟨S512x256, .f32⟩ : BufTy).Contents (Elt Ideal))
    (x5 : (⟨S256, .f32⟩ : BufTy).Contents (Elt Ideal)) (r : Fin 16384) (c : Fin 256) :
    val_main_v20 (F := Ideal) x0 x1 x4 x5 (ix2 r c) = Ideal.logistic (pre (row x1 r) (row x0 r) (mat x4) (vec x5) c) := by
  rw [val_main_v20_apply, val_main_v18_apply, val_main_v16_apply, val_main_v15_apply, one19, one17, v14_eq]
  exact LibLstmCell.logistic_spelled _

/-- The state scaled by the reset gate, at (r, k). -/
theorem v21_eq (x0 x1 : (⟨S16384x256, .f32⟩ : BufTy).Contents (Elt Ideal)) (x4 : (⟨S512x256, .f32⟩ : BufTy).Contents (Elt Ideal))
    (x5 : (⟨S256, .f32⟩ : BufTy).Contents (Elt Ideal)) (r : Fin 16384) (k : Fin 256) :
    val_main_v21 (F := Ideal) x0 x1 x4 x5 (ix2 r k) = resetRow (row x1 r) (row x0 r) (mat x4) (vec x5) k := by
  rw [val_main_v21_apply, v20_eq]
  rfl

/-- The candidate's pre-activation at (r, c): the contraction of the joined row [reset-scaled h, x] with Ws, plus bs. -/
theorem v26_eq (x0 x1 : (⟨S16384x256, .f32⟩ : BufTy).Contents (Elt Ideal)) (x4 : (⟨S512x256, .f32⟩ : BufTy).Contents (Elt Ideal))
    (x5 : (⟨S256, .f32⟩ : BufTy).Contents (Elt Ideal)) (x6 : (⟨S512x256, .f32⟩ : BufTy).Contents (Elt Ideal))
    (x7 : (⟨S256, .f32⟩ : BufTy).Contents (Elt Ideal)) (r : Fin 16384) (c : Fin 256) :
    val_main_v26 (F := Ideal) x0 x1 x4 x5 x6 x7 (ix2 r c)
      = pre (resetRow (row x1 r) (row x0 r) (mat x4) (vec x5)) (row x0 r) (mat x6) (vec x7) c := by
  rw [val_main_v26_apply, val_main_v23_apply, bias25]
  simp only [lidx23, ridx23]
  refine (joined_pre (val_main_v21 (F := Ideal) x0 x1 x4 x5) x0 x6 x7 r c).trans ?_
  have hrow : row (val_main_v21 (F := Ideal) x0 x1 x4 x5) r = resetRow (row x1 r) (row x0 r) (mat x4) (vec x5) :=
    funext fun k => v21_eq x0 x1 x4 x5 r k
  rw [hrow]

/-- The reference's result is the cell, entry by entry: (1 - z) * h + z * tanh (candidate's pre-activation). -/
theorem val_eq_cell (x0 x1 : (⟨S16384x256, .f32⟩ : BufTy).Contents (Elt Ideal)) (x2 : (⟨S512x256, .f32⟩ : BufTy).Contents (Elt Ideal))
    (x3 : (⟨S256, .f32⟩ : BufTy).Contents (Elt Ideal)) (x4 : (⟨S512x256, .f32⟩ : BufTy).Contents (Elt Ideal))
    (x5 : (⟨S256, .f32⟩ : BufTy).Contents (Elt Ideal)) (x6 : (⟨S512x256, .f32⟩ : BufTy).Contents (Elt Ideal))
    (x7 : (⟨S256, .f32⟩ : BufTy).Contents (Elt Ideal)) :
    Cert.ReferenceIdeal.ReadP.val_main_v32 (F := Ideal) x0 x1 x2 x3 x4 x5 x6 x7 = GruCell.cell x0 x1 x2 x3 x4 x5 x6 x7 := by
  funext j
  obtain ⟨r, c, rfl⟩ : ∃ (r : Fin 16384) (c : Fin 256), j = ValueIdx.ix2 r c := ⟨j 0, j 1, ValueIdx.eq_ix2 j⟩
  rw [cell_apply, val_main_v32_apply, val_main_v30_apply, val_main_v31_apply, val_main_v29_apply, val_main_v27_apply,
    one28, v10_eq, v26_eq]
  rfl

/-- On every device, from any memory with zero counters: every weakly fair execution of the reference terminates
    with the result buffer holding the gated recurrent cell of the arguments' launch contents, the arguments
    unchanged. -/
theorem run_cell (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = GruCell.cell (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1.trans (ReadP.val_main_v32_eq _ _ _ _ _ _ _ _)).trans
      (val_eq_cell _ _ _ _ _ _ _ _), (h c).2⟩)
    (Cert.ReferenceIdeal.ValueP.run (F := Ideal) m ρ)

end Cert.ReferenceIdeal.RefValue

end
-- ==== Proof.lean ====
/-
  The certificate: a fused, row-tiled kernel for one step of a gated recurrent cell against its plain reference.

  Both programs, read on the extended reals, compute the same array: for every row, the update gate z and the reset
  gate r are the logistic function of (h W_h + x W_x) + b, the candidate is the hyperbolic tangent of the same
  expression with r * h in place of h, and the new state is (1 - z) * h + z * candidate. The reference contracts the
  joined row [h, x] with each 512-row weight matrix; the kernel contracts h and x separately with fused slices of the
  same matrices, eight blocks of 2048 rows at a time. A sum over 512 positions is the sum over its two halves, and
  nothing else distinguishes the two arrangements, so no finiteness of the inputs is used: the precondition is never
  opened. The kernel's idealization rewrote no operation, so that conjunct is trivial. Each program runs to its end
  without a fault and leaves its eight arguments unchanged.
-/
import proofs.«116972_j83760452207457_2_alg».proof.Defs
import proofs.«116972_j83760452207457_2_alg».proof.Proof.Gen.Kernel
import proofs.«116972_j83760452207457_2_alg».proof.Proof.Gen.KernelIdeal
import proofs.«116972_j83760452207457_2_alg».proof.Proof.Gen.ReferenceIdeal
import proofs.«116972_j83760452207457_2_alg».proof.Proof.Gen.Pre_finite_inputs
import proofs.«116972_j83760452207457_2_alg».proof.Proof.KernelLaunched
import proofs.«116972_j83760452207457_2_alg».proof.Proof.KernelIdealWhole
import proofs.«116972_j83760452207457_2_alg».proof.Proof.RefCell

noncomputable section

namespace Cert.Proof

open Idealize.ShloMosaic Idealize.SL.Sem

/-- The kernel's program as printed runs and leaves its arguments unchanged. -/
theorem frame_kernel : Cert.frame_Kernel := fun m ρ _ => Cert.Kernel.Launched.args_unchanged m ρ

/-- So does its reading on the extended reals. -/
theorem frame_ideal : Cert.frame_KernelIdeal := fun m ρ _ => Cert.KernelIdeal.Launched.args_unchanged m ρ

/-- The reference runs and leaves its arguments unchanged: its run, with the result dropped. -/
theorem frame_ref : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both programs end with the cell of the arguments in their result. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.RefValue.run_cell m' ρ')
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
